-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel

variable [Facts]

def fn {F : FTy → Type} [FloatOps F] (main_arg0 : FVec F S8000000x3 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  main_v3
-- ==== Kernel.lean ====
abbrev S8000000x3 : Shape := ⟨2, ![8000000, 3]⟩
abbrev S_ : Shape := ⟨0, ![]⟩
abbrev S8126464x3 : Shape := ⟨2, ![8126464, 3]⟩
abbrev S3x8126464 : Shape := ⟨2, ![3, 8126464]⟩
abbrev S3x63488x128 : Shape := ⟨3, ![3, 63488, 128]⟩
abbrev S3x2048x128 : Shape := ⟨3, ![3, 2048, 128]⟩
abbrev S1x2048x128 : Shape := ⟨3, ![1, 2048, 128]⟩
abbrev S2048x128 : Shape := ⟨2, ![2048, 128]⟩

abbrev nBuf : Space → Nat
  | .hbm => 10
  | .vmem => 4
  | .smem => 0
  | _ => 0

abbrev bufTy : (tb : Table) → Fin (tcTables nBuf tb) → BufTy
  | .hbm, ⟨0, _⟩ => ⟨S8000000x3, .f32⟩
  | .hbm, ⟨1, _⟩ => ⟨S_, .i32⟩
  | .hbm, ⟨2, _⟩ => ⟨S_, .f32⟩
  | .hbm, ⟨3, _⟩ => ⟨S8126464x3, .f32⟩
  | .hbm, ⟨4, _⟩ => ⟨S3x8126464, .f32⟩
  | .hbm, ⟨5, _⟩ => ⟨S3x63488x128, .f32⟩
  | .hbm, ⟨6, _⟩ => ⟨S3x63488x128, .f32⟩
  | .hbm, ⟨7, _⟩ => ⟨S3x8126464, .f32⟩
  | .hbm, ⟨8, _⟩ => ⟨S8126464x3, .f32⟩
  | .hbm, ⟨9, _⟩ => ⟨S8000000x3, .f32⟩
  | .local _ .vmem, ⟨0, _⟩ => ⟨S3x2048x128, .f32⟩
  | .local _ .vmem, ⟨1, _⟩ => ⟨S3x2048x128, .f32⟩
  | .local _ .vmem, ⟨2, _⟩ => ⟨S3x2048x128, .f32⟩
  | .local _ .vmem, ⟨3, _⟩ => ⟨S3x2048x128, .f32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![31], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S8000000x3_S8126464x3_01264640_000 : S8000000x3.Pads (![0, 0] : Fin 2 → Nat) ![126464, 0] ![0, 0] S8126464x3
  h_S_ : 0 < S_.numel
  transposes_S8126464x3_S3x8126464_1_0 : S8126464x3.Transposes [1, 0] S3x8126464
  shapeCasts_S3x8126464_S3x63488x128 : S3x8126464.ShapeCasts S3x63488x128
  inb_S3x2048x128_S1x2048x128_0_0_0 : ∀ a, (![0, 0, 0] : Fin 3 → Nat) a + S1x2048x128.size a ≤ S3x2048x128.size a
  h_S1x2048x128 : 0 < S1x2048x128.numel
  shapeCasts_S1x2048x128_S2048x128 : S1x2048x128.ShapeCasts S2048x128
  inb_S3x2048x128_S1x2048x128_1_0_0 : ∀ a, (![1, 0, 0] : Fin 3 → Nat) a + S1x2048x128.size a ≤ S3x2048x128.size a
  inb_S3x2048x128_S1x2048x128_2_0_0 : ∀ a, (![2, 0, 0] : Fin 3 → Nat) a + S1x2048x128.size a ≤ S3x2048x128.size a
  shapeCasts_S2048x128_S1x2048x128 : S2048x128.ShapeCasts S1x2048x128
  shapeCasts_S3x63488x128_S3x8126464 : S3x63488x128.ShapeCasts S3x8126464
  transposes_S3x8126464_S8126464x3_1_0 : S3x8126464.Transposes [1, 0] S8126464x3
  slices_S8126464x3_S8000000x3_0_0 : S8126464x3.Slices ![0, 0] S8000000x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2048x128.size a ≤ S3x63488x128.size a
  hwx0_0 : ∀ i : grid0.Coords, EltTy.bits .f32 = 32 ∨ (Rect.block (s := S3x63488x128) S3x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048x128.size a ≤ S3x63488x128.size a
  hwx0_1 : ∀ i : grid0.Coords, EltTy.bits .f32 = 32 ∨ (Rect.block (s := S3x63488x128) S3x2048x128.size (cc0_transform_1 i) (hinb0_1 i)).WholeWords (EltTy.packing .f32)

variable [Facts₀]

abbrev win0_0 : Pipeline.Window sig grid0 :=
  Pipeline.Window.ofSpec (Memref.whole main_v2) S3x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3x2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8000000x3 : Shape := ⟨2, ![8000000, 3]⟩
abbrev S8000000x1 : Shape := ⟨2, ![8000000, 1]⟩
abbrev S8000000 : Shape := ⟨1, ![8000000]⟩
abbrev S_ : Shape := ⟨0, ![]⟩

abbrev nBuf : Space → Nat
  | .hbm => 122
  | .vmem => 0
  | .smem => 0
  | _ => 0

abbrev bufTy : (tb : Table) → Fin (tcTables nBuf tb) → BufTy
  | .hbm, ⟨0, _⟩ => ⟨S8000000x3, .f32⟩
  | .hbm, ⟨1, _⟩ => ⟨S8000000x1, .f32⟩
  | .hbm, ⟨2, _⟩ => ⟨S8000000, .f32⟩
  | .hbm, ⟨3, _⟩ => ⟨S8000000x1, .f32⟩
  | .hbm, ⟨4, _⟩ => ⟨S8000000, .f32⟩
  | .hbm, ⟨5, _⟩ => ⟨S8000000x1, .f32⟩
  | .hbm, ⟨6, _⟩ => ⟨S8000000, .f32⟩
  | .hbm, ⟨7, _⟩ => ⟨S8000000, .f32⟩
  | .hbm, ⟨8, _⟩ => ⟨S_, .f32⟩
  | .hbm, ⟨9, _⟩ => ⟨S8000000, .f32⟩
  | .hbm, ⟨10, _⟩ => ⟨S8000000, .f32⟩
  | .hbm, ⟨11, _⟩ => ⟨S_, .f32⟩
  | .hbm, ⟨12, _⟩ => ⟨S8000000, .f32⟩
  | .hbm, ⟨13, _⟩ => ⟨S8000000, .f32⟩
  | .hbm, ⟨14, _⟩ => ⟨S8000000, .f32⟩
  | .hbm, ⟨15, _⟩ => ⟨S8000000, .f32⟩
  | .hbm, ⟨16, _⟩ => ⟨S8000000, .f32⟩
  | .hbm, ⟨17, _⟩ => ⟨S_, .f32⟩
  | .hbm, ⟨18, _⟩ => ⟨S8000000, .f32⟩
  | .hbm, ⟨19, _⟩ => ⟨S8000000, .f32⟩
  | .hbm, ⟨20, _⟩ => ⟨S8000000, .f32⟩
  | .hbm, ⟨21, _⟩ => ⟨S8000000x1, .f32⟩
  | .hbm, ⟨22, _⟩ => ⟨S8000000x1, .f32⟩
  | .hbm, ⟨23, _⟩ => ⟨S8000000x1, .f32⟩
  | .hbm, ⟨24, _⟩ => ⟨S8000000x3, .f32⟩
  | .hbm, ⟨25, _⟩ => ⟨S_, .f32⟩
  | .hbm, ⟨26, _⟩ => ⟨S8000000x3, .f32⟩
  | .hbm, ⟨27, _⟩ => ⟨S8000000x3, .f32⟩
  | .hbm, ⟨28, _⟩ => ⟨S8000000x3, .f32⟩
  | .hbm, ⟨29, _⟩ => ⟨S8000000x1, .f32⟩
  | .hbm, ⟨30, _⟩ => ⟨S8000000, .f32⟩
  | .hbm, ⟨31, _⟩ => ⟨S8000000x1, .f32⟩
  | .hbm, ⟨32, _⟩ => ⟨S8000000, .f32⟩
  | .hbm, ⟨33, _⟩ => ⟨S8000000x1, .f32⟩
  | .hbm, ⟨34, _⟩ => ⟨S8000000, .f32⟩
  | .hbm, ⟨35, _⟩ => ⟨S8000000, .f32⟩
  | .hbm, ⟨36, _⟩ => ⟨S_, .f32⟩
  | .hbm, ⟨37, _⟩ => ⟨S8000000, .f32⟩
  | .hbm, ⟨38, _⟩ => ⟨S8000000, .f32⟩
  | .hbm, ⟨39, _⟩ => ⟨S_, .f32⟩
  | .hbm, ⟨40, _⟩ => ⟨S8000000, .f32⟩
  | .hbm, ⟨41, _⟩ => ⟨S8000000, .f32⟩
  | .hbm, ⟨42, _⟩ => ⟨S8000000, .f32⟩
  | .hbm, ⟨43, _⟩ => ⟨S8000000, .f32⟩
  | .hbm, ⟨44, _⟩ => ⟨S8000000, .f32⟩
  | .hbm, ⟨45, _⟩ => ⟨S_, .f32⟩
  | .hbm, ⟨46, _⟩ => ⟨S8000000, .f32⟩
  | .hbm, ⟨47, _⟩ => ⟨S8000000, .f32⟩
  | .hbm, ⟨48, _⟩ => ⟨S8000000, .f32⟩
  | .hbm, ⟨49, _⟩ => ⟨S8000000x1, .f32⟩
  | .hbm, ⟨50, _⟩ => ⟨S8000000x1, .f32⟩
  | .hbm, ⟨51, _⟩ => ⟨S8000000x1, .f32⟩
  | .hbm, ⟨52, _⟩ => ⟨S8000000x3, .f32⟩
  | .hbm, ⟨53, _⟩ => ⟨S_, .f32⟩
  | .hbm, ⟨54, _⟩ => ⟨S8000000x3, .f32⟩
  | .hbm, ⟨55, _⟩ => ⟨S8000000x3, .f32⟩
  | .hbm, ⟨56, _⟩ => ⟨S8000000x3, .f32⟩
  | .hbm, ⟨57, _⟩ => ⟨S8000000x1, .f32⟩
  | .hbm, ⟨58, _⟩ => ⟨S8000000, .f32⟩
  | .hbm, ⟨59, _⟩ => ⟨S8000000x1, .f32⟩
  | .hbm, ⟨60, _⟩ => ⟨S8000000, .f32⟩
  | .hbm, ⟨61, _⟩ => ⟨S8000000x1, .f32⟩
  | .hbm, ⟨62, _⟩ => ⟨S8000000, .f32⟩
  | .hbm, ⟨63, _⟩ => ⟨S8000000, .f32⟩
  | .hbm, ⟨64, _⟩ => ⟨S_, .f32⟩
  | .hbm, ⟨65, _⟩ => ⟨S8000000, .f32⟩
  | .hbm, ⟨66, _⟩ => ⟨S8000000, .f32⟩
  | .hbm, ⟨67, _⟩ => ⟨S_, .f32⟩
  | .hbm, ⟨68, _⟩ => ⟨S8000000, .f32⟩
  | .hbm, ⟨69, _⟩ => ⟨S8000000, .f32⟩
  | .hbm, ⟨70, _⟩ => ⟨S8000000, .f32⟩
  | .hbm, ⟨71, _⟩ => ⟨S8000000, .f32⟩
  | .hbm, ⟨72, _⟩ => ⟨S8000000, .f32⟩
  | .hbm, ⟨73, _⟩ => ⟨S_, .f32⟩
  | .hbm, ⟨74, _⟩ => ⟨S8000000, .f32⟩
  | .hbm, ⟨75, _⟩ => ⟨S8000000, .f32⟩
  | .hbm, ⟨76, _⟩ => ⟨S8000000, .f32⟩
  | .hbm, ⟨77, _⟩ => ⟨S8000000x1, .f32⟩
  | .hbm, ⟨78, _⟩ => ⟨S8000000x1, .f32⟩
  | .hbm, ⟨79, _⟩ => ⟨S8000000x1, .f32⟩
  | .hbm, ⟨80, _⟩ => ⟨S8000000x3, .f32⟩
  | .hbm, ⟨81, _⟩ => ⟨S_, .f32⟩
  | .hbm, ⟨82, _⟩ => ⟨S8000000x3, .f32⟩
  | .hbm, ⟨83, _⟩ => ⟨S8000000x3, .f32⟩
  | .hbm, ⟨84, _⟩ => ⟨S8000000x3, .f32⟩
  | .hbm, ⟨85, _⟩ => ⟨S8000000x1, .f32⟩
  | .hbm, ⟨86, _⟩ => ⟨S8000000, .f32⟩
  | .hbm, ⟨87, _⟩ => ⟨S8000000x1, .f32⟩
  | .hbm, ⟨88, _⟩ => ⟨S8000000, .f32⟩
  | .hbm, ⟨89, _⟩ => ⟨S8000000x1, .f32⟩
  | .hbm, ⟨90, _⟩ => ⟨S8000000, .f32⟩
  | .hbm, ⟨91, _⟩ => ⟨S8000000, .f32⟩
  | .hbm, ⟨92, _⟩ => ⟨S_, .f32⟩
  | .hbm, ⟨93, _⟩ => ⟨S8000000, .f32⟩
  | .hbm, ⟨94, _⟩ => ⟨S8000000, .f32⟩
  | .hbm, ⟨95, _⟩ => ⟨S_, .f32⟩
  | .hbm, ⟨96, _⟩ => ⟨S8000000, .f32⟩
  | .hbm, ⟨97, _⟩ => ⟨S8000000, .f32⟩
  | .hbm, ⟨98, _⟩ => ⟨S8000000, .f32⟩
  | .hbm, ⟨99, _⟩ => ⟨S8000000, .f32⟩
  | .hbm, ⟨100, _⟩ => ⟨S8000000, .f32⟩
  | .hbm, ⟨101, _⟩ => ⟨S_, .f32⟩
  | .hbm, ⟨102, _⟩ => ⟨S8000000, .f32⟩
  | .hbm, ⟨103, _⟩ => ⟨S8000000, .f32⟩
  | .hbm, ⟨104, _⟩ => ⟨S8000000, .f32⟩
  | .hbm, ⟨105, _⟩ => ⟨S8000000x1, .f32⟩
  | .hbm, ⟨106, _⟩ => ⟨S8000000x1, .f32⟩
  | .hbm, ⟨107, _⟩ => ⟨S8000000x1, .f32⟩
  | .hbm, ⟨108, _⟩ => ⟨S8000000x3, .f32⟩
  | .hbm, ⟨109, _⟩ => ⟨S_, .f32⟩
  | .hbm, ⟨110, _⟩ => ⟨S8000000x3, .f32⟩
  | .hbm, ⟨111, _⟩ => ⟨S8000000x3, .f32⟩
  | .hbm, ⟨112, _⟩ => ⟨S8000000x3, .f32⟩
  | .hbm, ⟨113, _⟩ => ⟨S_, .f32⟩
  | .hbm, ⟨114, _⟩ => ⟨S8000000x3, .f32⟩
  | .hbm, ⟨115, _⟩ => ⟨S8000000x3, .f32⟩
  | .hbm, ⟨116, _⟩ => ⟨S8000000x3, .f32⟩
  | .hbm, ⟨117, _⟩ => ⟨S8000000x3, .f32⟩
  | .hbm, ⟨118, _⟩ => ⟨S_, .f32⟩
  | .hbm, ⟨119, _⟩ => ⟨S8000000x3, .f32⟩
  | .hbm, ⟨120, _⟩ => ⟨S8000000x3, .f32⟩
  | .hbm, ⟨121, _⟩ => ⟨S8000000x3, .f32⟩
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_3 : Ref sig .tc := ⟨.hbm, 36, rfl⟩
abbrev main_v31 : Ref sig .tc := ⟨.hbm, 37, rfl⟩
abbrev main_v32 : Ref sig .tc := ⟨.hbm, 38, rfl⟩
abbrev main_cst_4 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_5 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_6 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_7 : Ref sig .tc := ⟨.hbm, 64, rfl⟩
abbrev main_v55 : Ref sig .tc := ⟨.hbm, 65, rfl⟩
abbrev main_v56 : Ref sig .tc := ⟨.hbm, 66, rfl⟩
abbrev main_cst_8 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_9 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_10 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_11 : Ref sig .tc := ⟨.hbm, 92, rfl⟩
abbrev main_v79 : Ref sig .tc := ⟨.hbm, 93, rfl⟩
abbrev main_v80 : Ref sig .tc := ⟨.hbm, 94, rfl⟩
abbrev main_cst_12 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_13 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_14 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_15 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_16 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩

abbrev nD : Nat := 1
abbrev τ : Topo := Topo.v7x

variable {F : FTy → Type} [FloatOps F]

class Facts₀ : Prop where
  slices_S8000000x3_S8000000x1_0_0 : S8000000x3.Slices ![0, 0] S8000000x1
  shapeCasts_S8000000x1_S8000000 : S8000000x1.ShapeCasts S8000000
  slices_S8000000x3_S8000000x1_0_1 : S8000000x3.Slices ![0, 1] S8000000x1
  slices_S8000000x3_S8000000x1_0_2 : S8000000x3.Slices ![0, 2] S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  concatenates_S8000000x1_S8000000x1_S8000000x1_S8000000x3_d1 : Shape.Concatenates [S8000000x1, S8000000x1, S8000000x1] S8000000x3 1
  bcast_S_S8000000x3 : S_.BroadcastsInDim S8000000x3 (![] : Fin 0 → Fin S8000000x3.rank)

variable [Facts₀]

class Facts : Prop extends Facts₀ where

variable [Facts]
-- ==== Proof.LorenzStep.lean ====
/-
  One classical Runge–Kutta step of the Lorenz system on the extended reals.

  A state is a triple p = (x, y, z), written as a function on three indices. The Lorenz vector field is
      f(p) = (σ·(y − x),  x·(ρ − z) − y,  x·y − β·z),
  and one fourth-order step of size h from p is
      k₁ = f(p),  k₂ = f(p + (h/2)·k₁),  k₃ = f(p + (h/2)·k₂),  k₄ = f(p + h·k₃),
      p' = p + (h/6)·(((k₁ + 2·k₂) + 2·k₃) + k₄).
  The constants σ, ρ, β, h/2, h, 2 and h/6 are the exact values of seven single-precision patterns; both programs
  of this certificate carry the same seven patterns, so none of them is ever evaluated: the two sides agree on the
  grouping of every sum and product, and the step below is written with that one grouping.
-/
import Idealize.ShloMosaic.PureOps.Ideal
import Idealize.ShloMosaic.Lib.ValueIdx

noncomputable section

namespace Cert.LorenzStep

open Idealize.ShloMosaic

/-- σ: the pattern of 10. -/
def sigma : EReal := Ideal.ofBits .f32 0x41200000#32
/-- ρ: the pattern of 28. -/
def rho : EReal := Ideal.ofBits .f32 0x41E00000#32
/-- β: the single-precision number nearest 8/3. -/
def beta : EReal := Ideal.ofBits .f32 0x402AAAAB#32
/-- h/2: the single-precision number nearest 0.005. -/
def halfStep : EReal := Ideal.ofBits .f32 0x3BA3D70A#32
/-- h: the single-precision number nearest 0.01. -/
def fullStep : EReal := Ideal.ofBits .f32 0x3C23D70A#32
/-- The weight 2 of the two middle slopes. -/
def two : EReal := Ideal.ofBits .f32 0x40000000#32
/-- h/6: the single-precision number nearest 0.01/6. -/
def sixthStep : EReal := Ideal.ofBits .f32 0x3ADA740E#32

/-- The Lorenz vector field at the state p = (p 0, p 1, p 2). -/
def field (p : Fin 3 → EReal) : Fin 3 → EReal :=
  ![sigma * (p 1 - p 0), p 0 * (rho - p 2) - p 1, p 0 * p 1 - beta * p 2]

/-- The state moved from p along the slope k by the step h, coordinate by coordinate. -/
def advance (h : EReal) (p k : Fin 3 → EReal) : Fin 3 → EReal := fun e => p e + h * k e

/-- The four slopes of the step from p. -/
def slope1 (p : Fin 3 → EReal) : Fin 3 → EReal := field p
def slope2 (p : Fin 3 → EReal) : Fin 3 → EReal := field (advance halfStep p (slope1 p))
def slope3 (p : Fin 3 → EReal) : Fin 3 → EReal := field (advance halfStep p (slope2 p))
def slope4 (p : Fin 3 → EReal) : Fin 3 → EReal := field (advance fullStep p (slope3 p))

/-- One Runge–Kutta step from p: p + (h/6)·(((k₁ + 2·k₂) + 2·k₃) + k₄), coordinate by coordinate. -/
def step (p : Fin 3 → EReal) : Fin 3 → EReal := fun e =>
  p e + sixthStep * (((slope1 p e + two * slope2 p e) + two * slope3 p e) + slope4 p e)

theorem field_zero (p : Fin 3 → EReal) : field p 0 = sigma * (p 1 - p 0) := rfl
theorem field_one (p : Fin 3 → EReal) : field p 1 = p 0 * (rho - p 2) - p 1 := rfl
theorem field_two (p : Fin 3 → EReal) : field p 2 = p 0 * p 1 - beta * p 2 := rfl

/-- The step depends only on the three coordinates of the state. -/
theorem step_congr {p q : Fin 3 → EReal} (h0 : p 0 = q 0) (h1 : p 1 = q 1) (h2 : p 2 = q 2) : step p = step q := by
  have : p = q := funext fun e => by
    match e with
    | ⟨0, _⟩ => exact h0
    | ⟨1, _⟩ => exact h1
    | ⟨2, _⟩ => exact h2
  rw [this]

/-- The step applied to every row of an [8000000, 3] array of states: at (n, d), coordinate d of the step from row n. -/
def stepRows (X : (⟨2, ![8000000, 3]⟩ : Shape).Idx → EReal) : (⟨2, ![8000000, 3]⟩ : Shape).Idx → EReal :=
  fun i => step (fun e => X (ValueIdx.ix2 (n0 := 8000000) (n1 := 3) (i 0) e)) (i 1)

theorem stepRows_apply (X : (⟨2, ![8000000, 3]⟩ : Shape).Idx → EReal) (n : Fin 8000000) (d : Fin 3) :
    stepRows X (ValueIdx.ix2 n d) = step (fun e => X (ValueIdx.ix2 n e)) d := rfl

end Cert.LorenzStep

end
-- ==== Proof.KernelBlock.lean ====
/-
  What the kernel body leaves in its output block, read at an index.

  A block holds 2048 × 128 states as three planes: plane 0 the x's, plane 1 the y's, plane 2 the z's. The body loads
  the three planes, does the whole Runge–Kutta arithmetic plane-wise (every operation acts entry by entry on
  [2048, 128] arrays), and stores three planes back. So the stored block at (d, r, l) is coordinate d of one
  Runge–Kutta step from the state (block (0, r, l), block (1, r, l), block (2, r, l)).
-/
import proofs.«141499_j45707041964068_1_alg».proof.Proof.Gen.KernelIdeal.Frame
import proofs.«141499_j45707041964068_1_alg».proof.Proof.LorenzStep
import Idealize.ShloMosaic.Lib.Pipeline.Value
import Idealize.ShloMosaic.Lib.ValueIdx
import Idealize.ShloMosaic.Lib.ValueLayout

set_option maxRecDepth 16384

noncomputable section

namespace Cert.KernelIdeal.BlockRead

open Cert.KernelIdeal Cert.KernelIdeal.Gen
open Idealize.ShloMosaic Idealize.ShloMosaic.TcCoe Idealize.SL.Sem
open Idealize.ShloMosaic.ValueIdx
open Cert.LorenzStep

/-- A block of states: three planes of 2048 rows by 128 lanes. -/
abbrev Block := Vec Ideal S3x2048x128 .f32
/-- One plane as the body loads it, with its leading unit axis. -/
abbrev Plane := Vec Ideal S1x2048x128 .f32

/-- A scalar constant of the body is the value of its pattern. -/
theorem scalar_const (w : BitVec 32) : Scalar.ofBits (F := Ideal) .f32 w = Ideal.ofBits .f32 w := rfl

/-- A state given by its three coordinates. -/
def state (a b c : EReal) : Fin 3 → EReal := ![a, b, c]

theorem state_zero (a b c : EReal) : state a b c 0 = a := rfl
theorem state_one (a b c : EReal) : state a b c 1 = b := rfl
theorem state_two (a b c : EReal) : state a b c 2 = c := rfl

section Payloads

variable (L0 L1 L2 : Plane) (u : Fin 1) (r : Fin 2048) (l : Fin 128)

/-- The plane stored first: coordinate 0 of the step, entry by entry. -/
theorem stored0_apply :
    k0_pay1 (k0_pay4 L0) (k0_pay27 (k0_pay4 L0) (k0_pay5 L1) (k0_pay6 L2) (k0_pay7 L0 L1) (k0_pay13 L0 L1 L2) (k0_pay14 L0 L1 L2) (k0_pay15 L0 L1 L2) (k0_pay16 L0 L1 L2)) (ix3 u r l)
      = step (state (L0 (ix3 (0 : Fin 1) r l)) (L1 (ix3 (0 : Fin 1) r l)) (L2 (ix3 (0 : Fin 1) r l))) 0 := by
  simp only [k0_pay1, k0_pay27, k0_pay4, k0_pay5, k0_pay6, k0_pay7, k0_pay13, k0_pay14, k0_pay15, k0_pay16,
    k0_pay8, k0_pay9, k0_pay10, k0_pay11, k0_pay12, k0_pay17, k0_pay18, k0_pay19, k0_pay20, k0_pay21, k0_pay22, k0_pay23,
    k0_pay24, k0_pay25, k0_pay26,
    shapeCast_ab_1ab_apply, shapeCast_1ab_ab_apply, addf_apply, mulf_apply, subf_apply, broadcast_apply, scalar_const]
  rfl

/-- The plane stored second: coordinate 1 of the step. -/
theorem stored1_apply :
    k0_pay2 (k0_pay5 L1) (k0_pay8 L0 L1 L2) (k0_pay14 L0 L1 L2) (k0_pay20 (k0_pay5 L1) (k0_pay6 L2) (k0_pay14 L0 L1 L2) (k0_pay15 L0 L1 L2) (k0_pay16 L0 L1 L2)) (k0_pay25 (k0_pay4 L0) (k0_pay5 L1) (k0_pay6 L2) (k0_pay14 L0 L1 L2) (k0_pay15 L0 L1 L2) (k0_pay16 L0 L1 L2)) (ix3 u r l)
      = step (state (L0 (ix3 (0 : Fin 1) r l)) (L1 (ix3 (0 : Fin 1) r l)) (L2 (ix3 (0 : Fin 1) r l))) 1 := by
  simp only [k0_pay2, k0_pay27, k0_pay4, k0_pay5, k0_pay6, k0_pay7, k0_pay13, k0_pay14, k0_pay15, k0_pay16,
    k0_pay8, k0_pay9, k0_pay10, k0_pay11, k0_pay12, k0_pay17, k0_pay18, k0_pay19, k0_pay20, k0_pay21, k0_pay22, k0_pay23,
    k0_pay24, k0_pay25, k0_pay26,
    shapeCast_ab_1ab_apply, shapeCast_1ab_ab_apply, addf_apply, mulf_apply, subf_apply, broadcast_apply, scalar_const]
  rfl

/-- The plane stored third: coordinate 2 of the step. -/
theorem stored2_apply :
    k0_pay3 (k0_pay6 L2) (k0_pay9 L0 L1 L2) (k0_pay15 L0 L1 L2) (k0_pay21 (k0_pay5 L1) (k0_pay6 L2) (k0_pay14 L0 L1 L2) (k0_pay15 L0 L1 L2) (k0_pay16 L0 L1 L2)) (k0_pay26 (k0_pay4 L0) (k0_pay5 L1) (k0_pay6 L2) (k0_pay14 L0 L1 L2) (k0_pay15 L0 L1 L2) (k0_pay16 L0 L1 L2)) (ix3 u r l)
      = step (state (L0 (ix3 (0 : Fin 1) r l)) (L1 (ix3 (0 : Fin 1) r l)) (L2 (ix3 (0 : Fin 1) r l))) 2 := by
  simp only [k0_pay3, k0_pay27, k0_pay4, k0_pay5, k0_pay6, k0_pay7, k0_pay13, k0_pay14, k0_pay15, k0_pay16,
    k0_pay8, k0_pay9, k0_pay10, k0_pay11, k0_pay12, k0_pay17, k0_pay18, k0_pay19, k0_pay20, k0_pay21, k0_pay22, k0_pay23,
    k0_pay24, k0_pay25, k0_pay26,
    shapeCast_ab_1ab_apply, shapeCast_1ab_ab_apply, addf_apply, mulf_apply, subf_apply, broadcast_apply, scalar_const]
  rfl

end Payloads

/-- The block after the body, as one function of the block before it. -/
def stepBlock (x0 : Block) : Block := fun y => step (fun e => x0 (ix3 e (y 1) (y 2))) (y 0)

theorem stepBlock_apply (x0 : Block) (d : Fin 3) (r : Fin 2048) (l : Fin 128) :
    stepBlock x0 (ix3 d r l) = step (fun e => x0 (ix3 e r l)) d := rfl

theorem emb0 (u : Fin 1) (r : Fin 2048) (l : Fin 128) : r0_0.emb (ix3 u r l : S1x2048x128.Idx) = ix3 (0 : Fin 3) r l := by
  funext a; apply Fin.ext
  have hu : u.val = 0 := by omega
  match a with
  | ⟨0, _⟩ => show 0 + 1 * u.val = 0; omega
  | ⟨1, _⟩ => show 0 + 1 * r.val = r.val; omega
  | ⟨2, _⟩ => show 0 + 1 * l.val = l.val; omega

theorem emb1 (u : Fin 1) (r : Fin 2048) (l : Fin 128) : r0_1.emb (ix3 u r l : S1x2048x128.Idx) = ix3 (1 : Fin 3) r l := by
  funext a; apply Fin.ext
  have hu : u.val = 0 := by omega
  match a with
  | ⟨0, _⟩ => show 1 + 1 * u.val = 1; omega
  | ⟨1, _⟩ => show 0 + 1 * r.val = r.val; omega
  | ⟨2, _⟩ => show 0 + 1 * l.val = l.val; omega

theorem emb2 (u : Fin 1) (r : Fin 2048) (l : Fin 128) : r0_2.emb (ix3 u r l : S1x2048x128.Idx) = ix3 (2 : Fin 3) r l := by
  funext a; apply Fin.ext
  have hu : u.val = 0 := by omega
  match a with
  | ⟨0, _⟩ => show 2 + 1 * u.val = 2; omega
  | ⟨1, _⟩ => show 0 + 1 * r.val = r.val; omega
  | ⟨2, _⟩ => show 0 + 1 * l.val = l.val; omega

/-- Three planes stored one under the other make the block whose plane e they are. -/
theorem canon_three (x0 : Block) (p2 p1 p0 : Plane)
    (h2 : ∀ (u : Fin 1) (r : Fin 2048) (l : Fin 128), p2 (ix3 u r l) = stepBlock x0 (ix3 (2 : Fin 3) r l))
    (h1 : ∀ (u : Fin 1) (r : Fin 2048) (l : Fin 128), p1 (ix3 u r l) = stepBlock x0 (ix3 (1 : Fin 3) r l))
    (h0 : ∀ (u : Fin 1) (r : Fin 2048) (l : Fin 128), p0 (ix3 u r l) = stepBlock x0 (ix3 (0 : Fin 3) r l))
    (y : S3x2048x128.Idx) :
    View.canon ([⟨r0_2, p2⟩, ⟨r0_1, p1⟩, ⟨r0_0, p0⟩] : List (View.Piece (Elt Ideal) S3x2048x128 .f32)) y = stepBlock x0 y := by
  refine View.canon_apply_of_pieces (stepBlock x0) _ ?_ y (cover0_1 p2 p1 p0 y)
  intro p hp x
  simp only [List.mem_cons, List.mem_nil_iff, or_false] at hp
  rcases hp with rfl | rfl | rfl
  · obtain ⟨u, r, l, rfl⟩ : ∃ (u : Fin 1) (r : Fin 2048) (l : Fin 128), x = ix3 u r l := ⟨x 0, x 1, x 2, eq_ix3 x⟩
    show p2 (ix3 u r l) = stepBlock x0 (r0_2.emb (ix3 u r l : S1x2048x128.Idx))
    rw [emb2, h2]
  · obtain ⟨u, r, l, rfl⟩ : ∃ (u : Fin 1) (r : Fin 2048) (l : Fin 128), x = ix3 u r l := ⟨x 0, x 1, x 2, eq_ix3 x⟩
    show p1 (ix3 u r l) = stepBlock x0 (r0_1.emb (ix3 u r l : S1x2048x128.Idx))
    rw [emb1, h1]
  · obtain ⟨u, r, l, rfl⟩ : ∃ (u : Fin 1) (r : Fin 2048) (l : Fin 128), x = ix3 u r l := ⟨x 0, x 1, x 2, eq_ix3 x⟩
    show p0 (ix3 u r l) = stepBlock x0 (r0_0.emb (ix3 u r l : S1x2048x128.Idx))
    rw [emb0, h0]

/-- The state a load of the three planes finds at (r, l) is the block's state there. -/
theorem loaded_state (x0 : Block) (r : Fin 2048) (l : Fin 128) (d : Fin 3) :
    step (state (View.ld x0 r0_0 (ix3 (0 : Fin 1) r l)) (View.ld x0 r0_1 (ix3 (0 : Fin 1) r l)) (View.ld x0 r0_2 (ix3 (0 : Fin 1) r l))) d
      = step (fun e => x0 (ix3 e r l)) d := by
  show step (state (x0 (r0_0.emb (ix3 (0 : Fin 1) r l : S1x2048x128.Idx))) (x0 (r0_1.emb (ix3 (0 : Fin 1) r l : S1x2048x128.Idx))) (x0 (r0_2.emb (ix3 (0 : Fin 1) r l : S1x2048x128.Idx)))) d = _
  rw [emb0, emb1, emb2]
  exact congrFun (step_congr (p := state (x0 (ix3 (0 : Fin 3) r l)) (x0 (ix3 (1 : Fin 3) r l)) (x0 (ix3 (2 : Fin 3) r l))) (q := fun e => x0 (ix3 e r l)) rfl rfl rfl) d

/-- What the body leaves in the output block: the Runge–Kutta step of every state of the input block. -/
theorem out_eq (x0 : Block) : out0_1 x0 = stepBlock x0 := by
  funext y
  unfold out0_1
  exact canon_three x0 _ _ _
    (fun u r l => (stored2_apply _ _ _ u r l).trans (loaded_state x0 r l 2))
    (fun u r l => (stored1_apply _ _ _ u r l).trans (loaded_state x0 r l 1))
    (fun u r l => (stored0_apply _ _ _ u r l).trans (loaded_state x0 r l 0)) y

end Cert.KernelIdeal.BlockRead

end
-- ==== Proof.KernelArray.lean ====
/-
  The kernel program's result as one function of its argument.

  Before the kernel the host pads the [8000000, 3] argument with rows of zeros to 8126464 = 31 · 2048 · 128 rows,
  transposes it, and folds each of its three long rows into 63488 rows of 128 lanes: state n sits at row n / 128, lane
  n mod 128 of the three planes. The kernel walks 31 grid points; point t takes rows 2048·t … 2048·t + 2047 of all
  three planes, steps every state of that block, and writes the block back at the same place. The 31 blocks tile the
  planes, so after the run the result planes are the stepped operand planes. After the kernel the host unfolds the
  planes, transposes back and drops the padded rows: the result at (n, d) is coordinate d of the step from row n.
-/
import proofs.«141499_j45707041964068_1_alg».proof.Proof.Gen.KernelIdeal.Frame
import proofs.«141499_j45707041964068_1_alg».proof.Proof.KernelBlock
import proofs.«141499_j45707041964068_1_alg».proof.Proof.LorenzStep
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.ArrayRead
open Cert.KernelIdeal Cert.KernelIdeal.Gen Cert.KernelIdeal.BlockRead
open Idealize.ShloMosaic Idealize.ShloMosaic.TcCoe Idealize.SL.Sem
open Idealize.ShloMosaic.ValueIdx
open Idealize.ShloMosaic.Pipeline (Dat)
open Cert.LorenzStep

variable (m : (ℓ : Loc nD τ sig) → Buf (Elt Ideal) ℓ) (ρ : Dev nD → PrngReg)

/-- The kernel's operand and result arrays: three planes of 63488 rows by 128 lanes. -/
abbrev Planes := S3x63488x128.Idx → EReal

/-- The Runge–Kutta step of every state of an array of three planes: at (d, q, l), coordinate d of the step from
    the state (A (0, q, l), A (1, q, l), A (2, q, l)). -/
def stepArray (A : Planes) : Planes := fun i => step (fun e => A (ix3 e (i 1) (i 2))) (i 0)

theorem stepArray_apply (A : Planes) (d : Fin 3) (q : Fin 63488) (l : Fin 128) :
    stepArray A (ix3 d q l) = step (fun e => A (ix3 e q l)) d := rfl

/-- Grid point t takes, of both windows, the block of all three planes, rows 2048·t … 2048·t + 2047, all lanes. -/
theorem index_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

theorem point_lt (t : Fin cfg0.N) : t.val < 31 := Nat.lt_of_lt_of_eq t.isLt N_0

/-- Any array of three planes read through the input window's block at point t: at (e, r, l) it is the array at
    (e, 2048·t + r, l). -/
theorem read_iblk (A : Planes) (t : Fin cfg0.N) (e : Fin 3) (r : Fin 2048) (l : Fin 128) (q : Fin 63488)
    (hq : q.val = t.val * 2048 + r.val) :
    ((cfg0.win 0).blk t).view.read (Elt Ideal) A (ix3 e r l : S3x2048x128.Idx) = A (ix3 e q l) := by
  obtain ⟨e0, e1, e2, -, -, -⟩ := index_facts t
  rw [View.read_apply]
  refine congrArg A ?_
  funext a
  apply Fin.ext
  match a with
  | ⟨0, _⟩ => show win0_0.index t 0 * 3 + 1 * e.val = e.val; rw [e0]; omega
  | ⟨1, _⟩ => show win0_0.index t 1 * 2048 + 1 * r.val = q.val; rw [e1, hq]; omega
  | ⟨2, _⟩ => show win0_0.index t 2 * 128 + 1 * l.val = l.val; rw [e2]; omega

/-- The input block at point t, read at (e, r, l), is the operand array at (e, 2048·t + r, l). -/
theorem iblk_apply (c : Dev nD) (t : Fin cfg0.N) (e : Fin 3) (r : Fin 2048) (l : Fin 128) (q : Fin 63488)
    (hq : q.val = t.val * 2048 + r.val) :
    (iblk m c 0 t : Block) (ix3 e r l) = (V m c (Pipeline.arrRef spec0 0) : Planes) (ix3 e q l) := by
  unfold iblk
  exact read_iblk (V m c (Pipeline.arrRef spec0 0)) t e r l q hq

/-- Any array of three planes read through the output window's block at point t: at (d, r, l) it is the array at
    (d, 2048·t + r, l). -/
theorem read_oblk (A : Planes) (t : Fin cfg0.N) (d : Fin 3) (r : Fin 2048) (l : Fin 128) (q : Fin 63488)
    (hq : q.val = t.val * 2048 + r.val) :
    ((cfg0.win 1).blk t).view.read (Elt Ideal) A (ix3 d r l : S3x2048x128.Idx) = A (ix3 d q l) := by
  obtain ⟨-, -, -, e3, e4, e5⟩ := index_facts t
  rw [View.read_apply]
  refine congrArg A ?_
  funext a
  apply Fin.ext
  match a with
  | ⟨0, _⟩ => show win0_1.index t 0 * 3 + 1 * d.val = d.val; rw [e3]; omega
  | ⟨1, _⟩ => show win0_1.index t 1 * 2048 + 1 * r.val = q.val; rw [e4, hq]; omega
  | ⟨2, _⟩ => show win0_1.index t 2 * 128 + 1 * l.val = l.val; rw [e5]; omega

/-- The output window's blocks are never cut at the array's end: what is written back is the whole staged block. -/
theorem cut_apply (X : Block) (i : grid0.Coords) (j : S3x2048x128.Idx) : (cfg0.win 1).cut i X j = X j := rfl

/-- If a block reads an array of three planes with its rows shifted to q, the stepped block reads the stepped array
    the same way. -/
theorem stepBlock_eq_stepArray (X : Block) (A : Planes) (d : Fin 3) (r : Fin 2048) (l : Fin 128) (q : Fin 63488)
    (h : ∀ e : Fin 3, X (ix3 e r l) = A (ix3 e q l)) :
    stepBlock X (ix3 d r l) = stepArray A (ix3 d q l) := by
  rw [stepBlock_apply, stepArray_apply]
  exact congrArg (fun p => step p d) (funext h)

/-- What point t writes back is its block of the stepped operand array. -/
theorem flushed_eq (c : Dev nD) (t : Fin cfg0.N) :
    (dats m 0 c).flushed 1 t = ((cfg0.win 1).blk t).view.read (Elt Ideal) (stepArray (V m c (Pipeline.arrRef spec0 0))) := by
  show (cfg0.win 1).cut (grid0.coords t) ((dats m 0 c).after 1 t) = _
  rw [after0_1, out_eq]
  have ht := point_lt t
  refine funext fun (j : S3x2048x128.Idx) => ?_
  obtain ⟨d, r, l, rfl⟩ : ∃ (d : Fin 3) (r : Fin 2048) (l : Fin 128), j = ix3 d r l := ⟨j 0, j 1, j 2, eq_ix3 j⟩
  refine (cut_apply (stepBlock (iblk m c 0 t)) (grid0.coords t) (ix3 d r l)).trans ?_
  refine Eq.trans ?_ (read_oblk (stepArray (V m c (Pipeline.arrRef spec0 0))) t d r l ⟨t.val * 2048 + r.val, by omega⟩ rfl).symm
  exact stepBlock_eq_stepArray (iblk m c 0 t) (V m c (Pipeline.arrRef spec0 0)) d r l _ (fun e => iblk_apply m c t e r l _ rfl)

end Cert.KernelIdeal.ArrayRead

namespace Cert.KernelIdeal.ArrayRead
open Cert.KernelIdeal Cert.KernelIdeal.Gen Cert.KernelIdeal.BlockRead
open Idealize.ShloMosaic Idealize.ShloMosaic.TcCoe Idealize.SL.Sem Idealize.ShloMosaic.StableHlo
open Idealize.ShloMosaic.ValueIdx
open Idealize.ShloMosaic.Pipeline (Dat)
open Cert.LorenzStep

variable (m : (ℓ : Loc nD τ sig) → Buf (Elt Ideal) ℓ) (ρ : Dev nD → PrngReg)

/-- An index of the result array is in point t's block iff each coordinate is in the block's range on its axis. -/
theorem mem_oblk (t : Fin cfg0.N) (i : S3x63488x128.Idx) :
    i ∈ ((cfg0.win 1).blk t).view.set ↔ ∀ a : Fin 3, win0_1.index t a * S3x2048x128.size a ≤ (i a).val ∧ (i a).val < win0_1.index t a * S3x2048x128.size a + S3x2048x128.size a := by
  show i ∈ ((View.whole main_v3).slice (win0_1.rect t)).set ↔ _
  rw [View.set_slice_whole, Rect.mem_set_unit]
  exact Iff.rfl

/-- The 31 blocks of 2048 rows tile the 63488 rows: row q is in the block of point q / 2048. -/
theorem cover (i : S3x63488x128.Idx) : ∃ t : Fin cfg0.N, (cfg0.win 1).flush t = true ∧ i ∈ ((cfg0.win 1).blk t).view.set := by
  have h0 : (i 0).val < 3 := (i 0).isLt
  have h1 : (i 1).val < 63488 := (i 1).isLt
  have h2 : (i 2).val < 128 := (i 2).isLt
  have hk : (i 1).val / 2048 < 31 := by omega
  obtain ⟨t, ht⟩ : ∃ t : Fin cfg0.N, t.val = (i 1).val / 2048 := ⟨⟨(i 1).val / 2048, Nat.lt_of_lt_of_eq hk N_0.symm⟩, rfl⟩
  obtain ⟨-, -, -, e3, e4, e5⟩ := index_facts t
  refine ⟨t, flush0_1 t, ?_⟩
  rw [mem_oblk]
  intro a
  match a with
  | ⟨0, _⟩ => show win0_1.index t 0 * 3 ≤ (i 0).val ∧ (i 0).val < win0_1.index t 0 * 3 + 3; rw [e3]; omega
  | ⟨1, _⟩ => show win0_1.index t 1 * 2048 ≤ (i 1).val ∧ (i 1).val < win0_1.index t 1 * 2048 + 2048; rw [e4, ht]; omega
  | ⟨2, _⟩ => show win0_1.index t 2 * 128 ≤ (i 2).val ∧ (i 2).val < win0_1.index t 2 * 128 + 128; rw [e5]; omega

/-- The result array after the run: the stepped operand array. -/
theorem final (c : Dev nD) : (dats m 0 c).arrAt 1 cfg0.N = stepArray (V m c (Pipeline.arrRef spec0 0)) :=
  (dats m 0 c).arrAt_eq_of_cover 1 (stepArray (V m c (Pipeline.arrRef spec0 0))) (fun t _ => flushed_eq m c t) cover

/-- The operand array as the host operations before the kernel leave it: the argument padded with 126464 rows of
    zeros, transposed, and its 8126464 columns folded into 63488 rows of 128 lanes. -/
theorem operand_eq (c : Dev nD) :
    (V m c main_v2 : Planes) = shapeCast S3x63488x128 (transpose S3x8126464 [1, 0]
      (pad S8126464x3 ![0, 0] ![126464, 0] ![0, 0] (m ((c : Thread nD τ).loc main_arg0)) (sitofp (F := Ideal) .f32 (constantI S_ 32 0#32))
        pads_S8000000x3_S8126464x3_01264640_000 h_S_) transposes_S8126464x3_S3x8126464_1_0) shapeCasts_S3x8126464_S3x63488x128 := by
  dsimp only [V, V0]
  simp only [hostOps0, hostOps0_1, hostOps0_2, List.flatten_cons, List.flatten_nil, List.append_nil, List.cons_append, List.nil_append]
  after_results
  rfl

end Cert.KernelIdeal.ArrayRead

namespace Cert.KernelIdeal.ArrayRead
open Cert.KernelIdeal Cert.KernelIdeal.Gen Cert.KernelIdeal.BlockRead
open Idealize.ShloMosaic Idealize.ShloMosaic.TcCoe Idealize.SL.Sem Idealize.ShloMosaic.StableHlo
open Idealize.ShloMosaic.ValueIdx
open Idealize.ShloMosaic.Pipeline (Dat)
open Cert.LorenzStep

variable (m : (ℓ : Loc nD τ sig) → Buf (Elt Ideal) ℓ) (ρ : Dev nD → PrngReg)

/-- The operand array at plane e, row q, lane l is the argument at row 128·q + l, column e, when that row is one of
    the argument's 8000000 (the rows after them are the zero padding). -/
theorem operand_apply (c : Dev nD) (e : Fin 3) (q : Fin 63488) (l : Fin 128) (n : Fin 8000000) (hn : n.val = q.val * 128 + l.val) :
    (V m c (Pipeline.arrRef spec0 0) : Planes) (ix3 e q l) = (m ((c : Thread nD τ).loc main_arg0) : S8000000x3.Idx → EReal) (ix2 n e) := by
  show (V m c main_v2 : Planes) (ix3 e q l) = _
  rw [operand_eq]
  have hlt := n.isLt
  refine (shapeCast_apply _ _ (ix3 e q l) (ix2 e (⟨n.val, by omega⟩ : Fin 8126464)) ?_).trans ?_
  · rw [Shape.rowMajor_val_two, Shape.rowMajor_val_three]
    show e.val * 8126464 + n.val = (e.val * 63488 + q.val) * 128 + l.val
    omega
  refine (transpose_ix2_apply _ _ e (⟨n.val, by omega⟩ : Fin 8126464)).trans ?_
  exact pad_apply_of_inside _ _ _ _ _ _ _ (ix2 (⟨n.val, by omega⟩ : Fin 8126464) e) (ix2 n e) (fun a => by
    match a with
    | ⟨0, _⟩ => show n.val = 0 + n.val * (0 + 1); omega
    | ⟨1, _⟩ => show e.val = 0 + e.val * (0 + 1); omega)

/-- The result as the host operations after the kernel leave it: the result array's planes unfolded into 8126464
    columns, transposed, and cut back to the first 8000000 rows. -/
theorem tail_eq (c : Dev nD) :
    (Pipeline.afterTail₀ cfgs (dats m) 0 (V0 m) [hostOps1] c main_v6 : S8000000x3.Idx → EReal)
      = extractStridedSlice S8000000x3 ![0, 0] (transpose S8126464x3 [1, 0]
          (shapeCast S3x8126464 ((dats m 0 c).arrAt 1 cfg0.N : Planes) shapeCasts_S3x63488x128_S3x8126464)
          transposes_S3x8126464_S8126464x3_1_0) slices_S8126464x3_S8000000x3_0_0 := by
  have hw : Pipeline.withArrays (cfgs 0).spec c (V0 m c) (fun w => (dats m 0 c).arrAt w (cfgs 0).N) (Proc.devRef .tc main_v3)
      = (dats m 0 c).arrAt 1 cfg0.N :=
    Pipeline.withArrays_arr spec0 launch0.win.arr_inj c (V0 m c) (fun w => (dats m 0 c).arrAt w cfg0.N) 1
  unfold Pipeline.afterTail₀
  show StableHlo.after hostOps1 _ (Proc.devRef .tc main_v6) = _
  after_results
  rw [hw]
  rfl

/-- The kernel program's result at row n and column d: coordinate d of one Runge–Kutta step from row n of the
    argument. Row n sits in lane n mod 128 of row n / 128 of the planes. -/
theorem result_apply (c : Dev nD) (n : Fin 8000000) (d : Fin 3) :
    (Pipeline.afterTail₀ cfgs (dats m) 0 (V0 m) [hostOps1] c main_v6 : S8000000x3.Idx → EReal) (ix2 n d)
      = step (fun e => (m ((c : Thread nD τ).loc main_arg0) : S8000000x3.Idx → EReal) (ix2 n e)) d := by
  have hlt := n.isLt
  rw [tail_eq]
  refine (slice2_axis0_apply 0 _ _ n d (⟨n.val, by omega⟩ : Fin 8126464) (by show n.val = 0 + n.val; omega)).trans ?_
  refine (transpose_ix2_apply _ _ (⟨n.val, by omega⟩ : Fin 8126464) d).trans ?_
  refine (shapeCast_apply _ _ (ix2 d (⟨n.val, by omega⟩ : Fin 8126464))
    (ix3 d (⟨n.val / 128, by omega⟩ : Fin 63488) (⟨n.val % 128, Nat.mod_lt _ (by decide)⟩ : Fin 128)) ?_).trans ?_
  · rw [Shape.rowMajor_val_two, Shape.rowMajor_val_three]
    show (d.val * 63488 + n.val / 128) * 128 + n.val % 128 = d.val * 8126464 + n.val
    omega
  rw [final, stepArray_apply]
  refine congrArg (fun p => step p d) (funext fun e => ?_)
  exact operand_apply m c e _ _ n (by show n.val = n.val / 128 * 128 + n.val % 128; omega)

/-- The kernel program's result: the step applied to every row of the argument. -/
theorem result_eq (c : Dev nD) :
    (Pipeline.afterTail₀ cfgs (dats m) 0 (V0 m) [hostOps1] c main_v6 : S8000000x3.Idx → EReal)
      = stepRows (m ((c : Thread nD τ).loc main_arg0)) := by
  funext i
  obtain ⟨n, d, rfl⟩ : ∃ (n : Fin 8000000) (d : Fin 3), i = ix2 n d := ⟨i 0, i 1, eq_ix2 i⟩
  rw [stepRows_apply]
  exact result_apply m c n d

/-- The kernel program's run: it ends with the step applied to every row of the argument, the argument unchanged. -/
theorem run : θ_run defs (onTc (τ := τ) (main (F := Ideal))) ⟨m, fun _ => 0, ρ⟩ fun r => ∀ c : Dev nD,
      r.2.mem ((c.tc : Thread nD τ).loc main_v6) = stepRows (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c)⟩)
    (run_main m ρ)

end Cert.KernelIdeal.ArrayRead

end
-- ==== Proof.ReferenceRows.lean ====
/-
  The reference program read at an index.

  The reference works on the whole [8000000, 3] array of states. It takes the three columns apart (a slice of one
  column, reshaped to a vector), forms the three coordinates of the Lorenz field as vectors, puts them back side by
  side as the three columns of an [8000000, 3] array, and does the Runge–Kutta arithmetic on whole arrays. Read at
  row n and column d, every one of these operations reads row n of its operands, so the result at (n, d) is
  coordinate d of one Runge–Kutta step from the state in row n of the argument.
-/
import proofs.«141499_j45707041964068_1_alg».proof.Proof.Gen.ReferenceIdeal
import proofs.«141499_j45707041964068_1_alg».proof.Proof.LorenzStep
import Idealize.ShloMosaic.Lib.Pipeline.Value
import Idealize.ShloMosaic.Lib.ValueIdx
import Idealize.ShloMosaic.Lib.ValueLayout

noncomputable section

namespace Cert.ReferenceIdeal.RowRead

open Cert.ReferenceIdeal Cert.ReferenceIdeal.Gen
open Idealize.ShloMosaic Idealize.ShloMosaic.TcCoe Idealize.SL.Sem Idealize.ShloMosaic.StableHlo
open Idealize.ShloMosaic.ValueIdx
open Cert.LorenzStep

/-- An array of states: one row per state, three columns. -/
abbrev States := FVec Ideal S8000000x3 .f32
/-- One coordinate of all the states, as a vector. -/
abbrev Column := FVec Ideal S8000000 .f32

/-- A constant spread over a vector reads that constant's value at every index. -/
def splat (w : BitVec 32) : Column := broadcastInDim S8000000 ![] bcast_S_S8000000 (constant S_ .f32 w)

theorem splat_apply (w : BitVec 32) (j : S8000000.Idx) : splat w j = Ideal.ofBits .f32 w := rfl

/-- Column o of an array of states, as a vector: the slice of that one column, reshaped. -/
def column (o : Nat) (hs : S8000000x3.Slices ![0, o] S8000000x1) (X : States) : Column :=
  shapeCast S8000000 (extractStridedSlice S8000000x1 ![0, o] X hs) shapeCasts_S8000000x1_S8000000

/-- Entry n of column o is the array at (n, o). -/
theorem column_apply (o : Nat) (hs : S8000000x3.Slices ![0, o] S8000000x1) (X : States) (n : Fin 8000000) (k : Fin 3)
    (hk : k.val = o) : column o hs X (ix1 n) = X (ix2 n k) := by
  unfold column
  refine (shapeCast_apply _ shapeCasts_S8000000x1_S8000000 (ix1 n) (ix2 n (0 : Fin 1)) ?_).trans ?_
  · rw [Shape.rowMajor_val_two, Shape.rowMajor_val_one]
    show n.val * 1 + 0 = n.val
    omega
  · exact slice2_axis1_apply o X hs n (0 : Fin 1) k (by rw [hk]; rfl)

/-- A vector set up as the one column of an [8000000, 1] array. -/
def asColumn (v : Column) : FVec Ideal S8000000x1 .f32 := broadcastInDim S8000000x1 ![0] bcast_S8000000_S8000000x1_0 v

/-- It reads, at (n, 0), the vector's entry n. -/
theorem asColumn_apply (v : Column) (n : Fin 8000000) (u : Fin 1) : asColumn v (ix2 n u) = v (ix1 n) := by
  unfold asColumn
  exact broadcastInDim_apply ![0] bcast_S8000000_S8000000x1_0 v (ix2 n u) (ix1 n) fun a => by
    match a with
    | ⟨0, _⟩ => exact (if_neg (show ¬((8000000 : Nat) = 1) by decide)).symm

/-- The three coordinates of the Lorenz field of every state, each as the reference computes it on the columns. -/
def xPiece (X : States) : FVec Ideal S8000000x1 .f32 :=
  asColumn (mulf (splat 0x41200000#32) (subf (column 1 slices_S8000000x3_S8000000x1_0_1 X) (column 0 slices_S8000000x3_S8000000x1_0_0 X)))
def yPiece (X : States) : FVec Ideal S8000000x1 .f32 :=
  asColumn (subf (mulf (column 0 slices_S8000000x3_S8000000x1_0_0 X) (subf (splat 0x41E00000#32) (column 2 slices_S8000000x3_S8000000x1_0_2 X)))
    (column 1 slices_S8000000x3_S8000000x1_0_1 X))
def zPiece (X : States) : FVec Ideal S8000000x1 .f32 :=
  asColumn (subf (mulf (column 0 slices_S8000000x3_S8000000x1_0_0 X) (column 1 slices_S8000000x3_S8000000x1_0_1 X))
    (mulf (splat 0x402AAAAB#32) (column 2 slices_S8000000x3_S8000000x1_0_2 X)))

section Pieces

variable (X : States) (n : Fin 8000000) (u : Fin 1)

theorem xPiece_apply : xPiece X (ix2 n u) = field (fun e => X (ix2 n e)) 0 := by
  unfold xPiece
  rw [asColumn_apply, field_zero]
  show Ideal.ofBits .f32 0x41200000#32 * (column 1 slices_S8000000x3_S8000000x1_0_1 X (ix1 n) - column 0 slices_S8000000x3_S8000000x1_0_0 X (ix1 n)) = _
  rw [column_apply 1 _ X n 1 rfl, column_apply 0 _ X n 0 rfl]
  rfl

theorem yPiece_apply : yPiece X (ix2 n u) = field (fun e => X (ix2 n e)) 1 := by
  unfold yPiece
  rw [asColumn_apply, field_one]
  show column 0 slices_S8000000x3_S8000000x1_0_0 X (ix1 n) * (Ideal.ofBits .f32 0x41E00000#32 - column 2 slices_S8000000x3_S8000000x1_0_2 X (ix1 n))
    - column 1 slices_S8000000x3_S8000000x1_0_1 X (ix1 n) = _
  rw [column_apply 1 _ X n 1 rfl, column_apply 0 _ X n 0 rfl, column_apply 2 _ X n 2 rfl]
  rfl

theorem zPiece_apply : zPiece X (ix2 n u) = field (fun e => X (ix2 n e)) 2 := by
  unfold zPiece
  rw [asColumn_apply, field_two]
  show column 0 slices_S8000000x3_S8000000x1_0_0 X (ix1 n) * column 1 slices_S8000000x3_S8000000x1_0_1 X (ix1 n)
    - Ideal.ofBits .f32 0x402AAAAB#32 * column 2 slices_S8000000x3_S8000000x1_0_2 X (ix1 n) = _
  rw [column_apply 1 _ X n 1 rfl, column_apply 0 _ X n 0 rfl, column_apply 2 _ X n 2 rfl]
  rfl

end Pieces

/-- The Lorenz field of every state of an array: the three coordinate columns set side by side. -/
def fieldOf (X : States) : States :=
  concatenate S8000000x3 1 [⟨S8000000x1, xPiece X⟩, ⟨S8000000x1, yPiece X⟩, ⟨S8000000x1, zPiece X⟩]
    concatenates_S8000000x1_S8000000x1_S8000000x1_S8000000x3_d1

/-- Three [8000000, 1] pieces set side by side along the columns: column k of the result is piece k. -/
theorem sideBySide_apply (p0 p1 p2 : FVec Ideal S8000000x1 .f32)
    (h : Shape.Concatenates (([⟨S8000000x1, p0⟩, ⟨S8000000x1, p1⟩, ⟨S8000000x1, p2⟩] : List ((s : Shape) × (s.Idx → Ideal .f32))).map (·.1)) S8000000x3 1)
    (n : Fin 8000000) :
    concatenate S8000000x3 1 [⟨S8000000x1, p0⟩, ⟨S8000000x1, p1⟩, ⟨S8000000x1, p2⟩] h (ix2 n (0 : Fin 3)) = p0 (ix2 n (0 : Fin 1))
    ∧ concatenate S8000000x3 1 [⟨S8000000x1, p0⟩, ⟨S8000000x1, p1⟩, ⟨S8000000x1, p2⟩] h (ix2 n (1 : Fin 3)) = p1 (ix2 n (0 : Fin 1))
    ∧ concatenate S8000000x3 1 [⟨S8000000x1, p0⟩, ⟨S8000000x1, p1⟩, ⟨S8000000x1, p2⟩] h (ix2 n (2 : Fin 3)) = p2 (ix2 n (0 : Fin 1)) := by
  have hi : ∀ (d : Fin 3) (b : Fin S8000000x1.rank), b.cast (rfl : S8000000x1.rank = S8000000x3.rank) ≠ (1 : Fin 2) →
      ((ix2 n (0 : Fin 1) : S8000000x1.Idx) b).val = ((ix2 n d : S8000000x3.Idx) (b.cast rfl)).val := fun d b hb => by
    match b with
    | ⟨0, _⟩ => rfl
    | ⟨1, _⟩ => exact absurd rfl hb
  refine ⟨?_, ?_, ?_⟩
  · exact concatenate_apply_piece (1 : Fin 2) _ h (ix2 n (0 : Fin 3)) 0 (by show 0 < 3; decide) S8000000x1 p0 rfl rfl 0 rfl
      (ix2 n (0 : Fin 1)) (hi 0) rfl
  · exact concatenate_apply_piece (1 : Fin 2) _ h (ix2 n (1 : Fin 3)) 1 (by show 1 < 3; decide) S8000000x1 p1 rfl rfl 1 rfl
      (ix2 n (0 : Fin 1)) (hi 1) rfl
  · exact concatenate_apply_piece (1 : Fin 2) _ h (ix2 n (2 : Fin 3)) 2 (by show 2 < 3; decide) S8000000x1 p2 rfl rfl 2 rfl
      (ix2 n (0 : Fin 1)) (hi 2) rfl

/-- The reference's field array at row n and column d is coordinate d of the Lorenz field at the state in row n. -/
theorem fieldOf_apply (X : States) (n : Fin 8000000) (d : Fin 3) :
    fieldOf X (ix2 n d) = field (fun e => X (ix2 n e)) d := by
  obtain ⟨s0, s1, s2⟩ := sideBySide_apply (xPiece X) (yPiece X) (zPiece X) concatenates_S8000000x1_S8000000x1_S8000000x1_S8000000x3_d1 n
  match d with
  | ⟨0, _⟩ => exact s0.trans (xPiece_apply X n 0)
  | ⟨1, _⟩ => exact s1.trans (yPiece_apply X n 0)
  | ⟨2, _⟩ => exact s2.trans (zPiece_apply X n 0)

/-- The state array moved along a slope array by a constant step, as the reference spells it. -/
def advanceOf (w : BitVec 32) (X K : States) : States :=
  addf X (mulf (broadcastInDim S8000000x3 ![] bcast_S_S8000000x3 (constant S_ .f32 w)) K)

theorem advanceOf_apply (w : BitVec 32) (X K : States) (i : S8000000x3.Idx) :
    advanceOf w X K i = X i + Ideal.ofBits .f32 w * K i := rfl

/-- The reference's whole computation on an array of states. -/
def stepOf (X : States) : States :=
  addf X (mulf (broadcastInDim S8000000x3 ![] bcast_S_S8000000x3 (constant S_ .f32 0x3ADA740E#32))
    (addf (addf (addf (fieldOf X)
        (mulf (broadcastInDim S8000000x3 ![] bcast_S_S8000000x3 (constant S_ .f32 0x40000000#32))
          (fieldOf (advanceOf 0x3BA3D70A#32 X (fieldOf X)))))
        (mulf (broadcastInDim S8000000x3 ![] bcast_S_S8000000x3 (constant S_ .f32 0x40000000#32))
          (fieldOf (advanceOf 0x3BA3D70A#32 X (fieldOf (advanceOf 0x3BA3D70A#32 X (fieldOf X)))))))
      (fieldOf (advanceOf 0x3C23D70A#32 X (fieldOf (advanceOf 0x3BA3D70A#32 X (fieldOf (advanceOf 0x3BA3D70A#32 X (fieldOf X)))))))))

/-- The reference's result at row n and column d: coordinate d of one Runge–Kutta step from the state in row n. -/
theorem stepOf_apply (X : States) (n : Fin 8000000) (d : Fin 3) :
    stepOf X (ix2 n d) = step (fun e => X (ix2 n e)) d := by
  have a1 : (fun e => advanceOf 0x3BA3D70A#32 X (fieldOf X) (ix2 n e)) = advance halfStep (fun e => X (ix2 n e)) (slope1 (fun e => X (ix2 n e))) :=
    funext fun e => by rw [advanceOf_apply, fieldOf_apply]; rfl
  have a2 : (fun e => advanceOf 0x3BA3D70A#32 X (fieldOf (advanceOf 0x3BA3D70A#32 X (fieldOf X))) (ix2 n e))
      = advance halfStep (fun e => X (ix2 n e)) (slope2 (fun e => X (ix2 n e))) :=
    funext fun e => by rw [advanceOf_apply, fieldOf_apply, a1]; rfl
  have a3 : (fun e => advanceOf 0x3C23D70A#32 X (fieldOf (advanceOf 0x3BA3D70A#32 X (fieldOf (advanceOf 0x3BA3D70A#32 X (fieldOf X))))) (ix2 n e))
      = advance fullStep (fun e => X (ix2 n e)) (slope3 (fun e => X (ix2 n e))) :=
    funext fun e => by rw [advanceOf_apply, fieldOf_apply, a2]; rfl
  show X (ix2 n d) + Ideal.ofBits .f32 0x3ADA740E#32 * (((fieldOf X (ix2 n d)
      + Ideal.ofBits .f32 0x40000000#32 * fieldOf (advanceOf 0x3BA3D70A#32 X (fieldOf X)) (ix2 n d))
      + Ideal.ofBits .f32 0x40000000#32 * fieldOf (advanceOf 0x3BA3D70A#32 X (fieldOf (advanceOf 0x3BA3D70A#32 X (fieldOf X)))) (ix2 n d))
      + fieldOf (advanceOf 0x3C23D70A#32 X (fieldOf (advanceOf 0x3BA3D70A#32 X (fieldOf (advanceOf 0x3BA3D70A#32 X (fieldOf X)))))) (ix2 n d)) = _
  rw [fieldOf_apply, fieldOf_apply, fieldOf_apply, fieldOf_apply, a1, a2, a3]
  rfl

/-- The reference's whole computation is the step applied to every row. -/
theorem stepOf_eq (X : States) : stepOf X = stepRows X := by
  funext i
  obtain ⟨n, d, rfl⟩ : ∃ (n : Fin 8000000) (d : Fin 3), i = ix2 n d := ⟨i 0, i 1, eq_ix2 i⟩
  rw [stepRows_apply]
  exact stepOf_apply X n d

end Cert.ReferenceIdeal.RowRead

end
-- ==== Proof.ReferenceRun.lean ====
/-
  The reference program's run.

  The reference is a straight line of 121 host operations. Its run is read in five stretches: the first four each
  end with the Lorenz field of an array of states (of the argument, then of the argument moved along the previous
  field by h/2, h/2 and h), the last adds the four fields up with the Runge–Kutta weights. Each stretch reads only the
  argument and the field arrays before it, and writes none of them, so the five readings compose to the step of the
  argument.
-/
import proofs.«141499_j45707041964068_1_alg».proof.Proof.ReferenceRows
import Idealize.ShloMosaic.Lib.StableHlo.Run

noncomputable section

namespace Cert.ReferenceIdeal.HostRun

open Cert.ReferenceIdeal Cert.ReferenceIdeal.Gen Cert.ReferenceIdeal.RowRead
open Idealize.ShloMosaic Idealize.ShloMosaic.TcCoe Idealize.SL.Sem Idealize.ShloMosaic.StableHlo

variable {F : FTy → Type} [FloatOps F]

/-- The program's 121 operations, in order. -/
abbrev ops : List (HloOp τ sig (Elt F)) :=
  [ unary main_arg0 main_v0 ((extractStridedSlice S8000000x1 ![0, 0] · slices_S8000000x3_S8000000x1_0_0) : (⟨S8000000x3, .f32⟩ : BufTy).Contents (Elt F) → (⟨S8000000x1, .f32⟩ : BufTy).Contents (Elt F)),
    reshape main_v0 main_v1 rfl shapeCasts_S8000000x1_S8000000,
    unary main_arg0 main_v2 ((extractStridedSlice S8000000x1 ![0, 1] · slices_S8000000x3_S8000000x1_0_1) : (⟨S8000000x3, .f32⟩ : BufTy).Contents (Elt F) → (⟨S8000000x1, .f32⟩ : BufTy).Contents (Elt F)),
    reshape main_v2 main_v3 rfl shapeCasts_S8000000x1_S8000000,
    unary main_arg0 main_v4 ((extractStridedSlice S8000000x1 ![0, 2] · slices_S8000000x3_S8000000x1_0_2) : (⟨S8000000x3, .f32⟩ : BufTy).Contents (Elt F) → (⟨S8000000x1, .f32⟩ : BufTy).Contents (Elt F)),
    reshape main_v4 main_v5 rfl shapeCasts_S8000000x1_S8000000,
    binary main_v3 main_v1 main_v6 (subf : (⟨S8000000, .f32⟩ : BufTy).Contents (Elt F) → (⟨S8000000, .f32⟩ : BufTy).Contents (Elt F) → (⟨S8000000, .f32⟩ : BufTy).Contents (Elt F)),
    nullary main_cst (constant S_ .f32 0x41200000#32),
    unary main_cst main_v7 (broadcastInDim S8000000 ![] bcast_S_S8000000 : (⟨S_, .f32⟩ : BufTy).Contents (Elt F) → (⟨S8000000, .f32⟩ : BufTy).Contents (Elt F)),
    binary main_v7 main_v6 main_v8 (mulf : (⟨S8000000, .f32⟩ : BufTy).Contents (Elt F) → (⟨S8000000, .f32⟩ : BufTy).Contents (Elt F) → (⟨S8000000, .f32⟩ : BufTy).Contents (Elt F)),
    nullary main_cst_0 (constant S_ .f32 0x41E00000#32),
    unary main_cst_0 main_v9 (broadcastInDim S8000000 ![] bcast_S_S8000000 : (⟨S_, .f32⟩ : BufTy).Contents (Elt F) → (⟨S8000000, .f32⟩ : BufTy).Contents (Elt F)),
    binary main_v9 main_v5 main_v10 (subf : (⟨S8000000, .f32⟩ : BufTy).Contents (Elt F) → (⟨S8000000, .f32⟩ : BufTy).Contents (Elt F) → (⟨S8000000, .f32⟩ : BufTy).Contents (Elt F)),
    binary main_v1 main_v10 main_v11 (mulf : (⟨S8000000, .f32⟩ : BufTy).Contents (Elt F) → (⟨S8000000, .f32⟩ : BufTy).Contents (Elt F) → (⟨S8000000, .f32⟩ : BufTy).Contents (Elt F)),
    binary main_v11 main_v3 main_v12 (subf : (⟨S8000000, .f32⟩ : BufTy).Contents (Elt F) → (⟨S8000000, .f32⟩ : BufTy).Contents (Elt F) → (⟨S8000000, .f32⟩ : BufTy).Contents (Elt F)),
    binary main_v1 main_v3 main_v13 (mulf : (⟨S8000000, .f32⟩ : BufTy).Contents (Elt F) → (⟨S8000000, .f32⟩ : BufTy).Contents (Elt F) → (⟨S8000000, .f32⟩ : BufTy).Contents (Elt F)),
    nullary main_cst_1 (constant S_ .f32 0x402AAAAB#32),
    unary main_cst_1 main_v14 (broadcastInDim S8000000 ![] bcast_S_S8000000 : (⟨S_, .f32⟩ : BufTy).Contents (Elt F) → (⟨S8000000, .f32⟩ : BufTy).Contents (Elt F)),
    binary main_v14 main_v5 main_v15 (mulf : (⟨S8000000, .f32⟩ : BufTy).Contents (Elt F) → (⟨S8000000, .f32⟩ : BufTy).Contents (Elt F) → (⟨S8000000, .f32⟩ : BufTy).Contents (Elt F)),
    binary main_v13 main_v15 main_v16 (subf : (⟨S8000000, .f32⟩ : BufTy).Contents (Elt F) → (⟨S8000000, .f32⟩ : BufTy).Contents (Elt F) → (⟨S8000000, .f32⟩ : BufTy).Contents (Elt F)),
    unary main_v8 main_v17 (broadcastInDim S8000000x1 ![0] bcast_S8000000_S8000000x1_0 : (⟨S8000000, .f32⟩ : BufTy).Contents (Elt F) → (⟨S8000000x1, .f32⟩ : BufTy).Contents (Elt F)),
    unary main_v12 main_v18 (broadcastInDim S8000000x1 ![0] bcast_S8000000_S8000000x1_0 : (⟨S8000000, .f32⟩ : BufTy).Contents (Elt F) → (⟨S8000000x1, .f32⟩ : BufTy).Contents (Elt F)),
    unary main_v16 main_v19 (broadcastInDim S8000000x1 ![0] bcast_S8000000_S8000000x1_0 : (⟨S8000000, .f32⟩ : BufTy).Contents (Elt F) → (⟨S8000000x1, .f32⟩ : BufTy).Contents (Elt F)),
    nary ![main_v17, main_v18, main_v19] main_v20 (fun u => concatenate S8000000x3 1 [⟨S8000000x1, u 0⟩, ⟨S8000000x1, u 1⟩, ⟨S8000000x1, u 2⟩] concatenates_S8000000x1_S8000000x1_S8000000x1_S8000000x3_d1),
    nullary main_cst_2 (constant S_ .f32 0x3BA3D70A#32),
    unary main_cst_2 main_v21 (broadcastInDim S8000000x3 ![] bcast_S_S8000000x3 : (⟨S_, .f32⟩ : BufTy).Contents (Elt F) → (⟨S8000000x3, .f32⟩ : BufTy).Contents (Elt F)),
    binary main_v21 main_v20 main_v22 (mulf : (⟨S8000000x3, .f32⟩ : BufTy).Contents (Elt F) → (⟨S8000000x3, .f32⟩ : BufTy).Contents (Elt F) → (⟨S8000000x3, .f32⟩ : BufTy).Contents (Elt F)),
    binary main_arg0 main_v22 main_v23 (addf : (⟨S8000000x3, .f32⟩ : BufTy).Contents (Elt F) → (⟨S8000000x3, .f32⟩ : BufTy).Contents (Elt F) → (⟨S8000000x3, .f32⟩ : BufTy).Contents (Elt F)),
    unary main_v23 main_v24 ((extractStridedSlice S8000000x1 ![0, 0] · slices_S8000000x3_S8000000x1_0_0) : (⟨S8000000x3, .f32⟩ : BufTy).Contents (Elt F) → (⟨S8000000x1, .f32⟩ : BufTy).Contents (Elt F)),
    reshape main_v24 main_v25 rfl shapeCasts_S8000000x1_S8000000,
    unary main_v23 main_v26 ((extractStridedSlice S8000000x1 ![0, 1] · slices_S8000000x3_S8000000x1_0_1) : (⟨S8000000x3, .f32⟩ : BufTy).Contents (Elt F) → (⟨S8000000x1, .f32⟩ : BufTy).Contents (Elt F)),
    reshape main_v26 main_v27 rfl shapeCasts_S8000000x1_S8000000,
    unary main_v23 main_v28 ((extractStridedSlice S8000000x1 ![0, 2] · slices_S8000000x3_S8000000x1_0_2) : (⟨S8000000x3, .f32⟩ : BufTy).Contents (Elt F) → (⟨S8000000x1, .f32⟩ : BufTy).Contents (Elt F)),
    reshape main_v28 main_v29 rfl shapeCasts_S8000000x1_S8000000,
    binary main_v27 main_v25 main_v30 (subf : (⟨S8000000, .f32⟩ : BufTy).Contents (Elt F) → (⟨S8000000, .f32⟩ : BufTy).Contents (Elt F) → (⟨S8000000, .f32⟩ : BufTy).Contents (Elt F)),
    nullary main_cst_3 (constant S_ .f32 0x41200000#32),
    unary main_cst_3 main_v31 (broadcastInDim S8000000 ![] bcast_S_S8000000 : (⟨S_, .f32⟩ : BufTy).Contents (Elt F) → (⟨S8000000, .f32⟩ : BufTy).Contents (Elt F)),
    binary main_v31 main_v30 main_v32 (mulf : (⟨S8000000, .f32⟩ : BufTy).Contents (Elt F) → (⟨S8000000, .f32⟩ : BufTy).Contents (Elt F) → (⟨S8000000, .f32⟩ : BufTy).Contents (Elt F)),
    nullary main_cst_4 (constant S_ .f32 0x41E00000#32),
    unary main_cst_4 main_v33 (broadcastInDim S8000000 ![] bcast_S_S8000000 : (⟨S_, .f32⟩ : BufTy).Contents (Elt F) → (⟨S8000000, .f32⟩ : BufTy).Contents (Elt F)),
    binary main_v33 main_v29 main_v34 (subf : (⟨S8000000, .f32⟩ : BufTy).Contents (Elt F) → (⟨S8000000, .f32⟩ : BufTy).Contents (Elt F) → (⟨S8000000, .f32⟩ : BufTy).Contents (Elt F)),
    binary main_v25 main_v34 main_v35 (mulf : (⟨S8000000, .f32⟩ : BufTy).Contents (Elt F) → (⟨S8000000, .f32⟩ : BufTy).Contents (Elt F) → (⟨S8000000, .f32⟩ : BufTy).Contents (Elt F)),
    binary main_v35 main_v27 main_v36 (subf : (⟨S8000000, .f32⟩ : BufTy).Contents (Elt F) → (⟨S8000000, .f32⟩ : BufTy).Contents (Elt F) → (⟨S8000000, .f32⟩ : BufTy).Contents (Elt F)),
    binary main_v25 main_v27 main_v37 (mulf : (⟨S8000000, .f32⟩ : BufTy).Contents (Elt F) → (⟨S8000000, .f32⟩ : BufTy).Contents (Elt F) → (⟨S8000000, .f32⟩ : BufTy).Contents (Elt F)),
    nullary main_cst_5 (constant S_ .f32 0x402AAAAB#32),
    unary main_cst_5 main_v38 (broadcastInDim S8000000 ![] bcast_S_S8000000 : (⟨S_, .f32⟩ : BufTy).Contents (Elt F) → (⟨S8000000, .f32⟩ : BufTy).Contents (Elt F)),
    binary main_v38 main_v29 main_v39 (mulf : (⟨S8000000, .f32⟩ : BufTy).Contents (Elt F) → (⟨S8000000, .f32⟩ : BufTy).Contents (Elt F) → (⟨S8000000, .f32⟩ : BufTy).Contents (Elt F)),
    binary main_v37 main_v39 main_v40 (subf : (⟨S8000000, .f32⟩ : BufTy).Contents (Elt F) → (⟨S8000000, .f32⟩ : BufTy).Contents (Elt F) → (⟨S8000000, .f32⟩ : BufTy).Contents (Elt F)),
    unary main_v32 main_v41 (broadcastInDim S8000000x1 ![0] bcast_S8000000_S8000000x1_0 : (⟨S8000000, .f32⟩ : BufTy).Contents (Elt F) → (⟨S8000000x1, .f32⟩ : BufTy).Contents (Elt F)),
    unary main_v36 main_v42 (broadcastInDim S8000000x1 ![0] bcast_S8000000_S8000000x1_0 : (⟨S8000000, .f32⟩ : BufTy).Contents (Elt F) → (⟨S8000000x1, .f32⟩ : BufTy).Contents (Elt F)),
    unary main_v40 main_v43 (broadcastInDim S8000000x1 ![0] bcast_S8000000_S8000000x1_0 : (⟨S8000000, .f32⟩ : BufTy).Contents (Elt F) → (⟨S8000000x1, .f32⟩ : BufTy).Contents (Elt F)),
    nary ![main_v41, main_v42, main_v43] main_v44 (fun u => concatenate S8000000x3 1 [⟨S8000000x1, u 0⟩, ⟨S8000000x1, u 1⟩, ⟨S8000000x1, u 2⟩] concatenates_S8000000x1_S8000000x1_S8000000x1_S8000000x3_d1),
    nullary main_cst_6 (constant S_ .f32 0x3BA3D70A#32),
    unary main_cst_6 main_v45 (broadcastInDim S8000000x3 ![] bcast_S_S8000000x3 : (⟨S_, .f32⟩ : BufTy).Contents (Elt F) → (⟨S8000000x3, .f32⟩ : BufTy).Contents (Elt F)),
    binary main_v45 main_v44 main_v46 (mulf : (⟨S8000000x3, .f32⟩ : BufTy).Contents (Elt F) → (⟨S8000000x3, .f32⟩ : BufTy).Contents (Elt F) → (⟨S8000000x3, .f32⟩ : BufTy).Contents (Elt F)),
    binary main_arg0 main_v46 main_v47 (addf : (⟨S8000000x3, .f32⟩ : BufTy).Contents (Elt F) → (⟨S8000000x3, .f32⟩ : BufTy).Contents (Elt F) → (⟨S8000000x3, .f32⟩ : BufTy).Contents (Elt F)),
    unary main_v47 main_v48 ((extractStridedSlice S8000000x1 ![0, 0] · slices_S8000000x3_S8000000x1_0_0) : (⟨S8000000x3, .f32⟩ : BufTy).Contents (Elt F) → (⟨S8000000x1, .f32⟩ : BufTy).Contents (Elt F)),
    reshape main_v48 main_v49 rfl shapeCasts_S8000000x1_S8000000,
    unary main_v47 main_v50 ((extractStridedSlice S8000000x1 ![0, 1] · slices_S8000000x3_S8000000x1_0_1) : (⟨S8000000x3, .f32⟩ : BufTy).Contents (Elt F) → (⟨S8000000x1, .f32⟩ : BufTy).Contents (Elt F)),
    reshape main_v50 main_v51 rfl shapeCasts_S8000000x1_S8000000,
    unary main_v47 main_v52 ((extractStridedSlice S8000000x1 ![0, 2] · slices_S8000000x3_S8000000x1_0_2) : (⟨S8000000x3, .f32⟩ : BufTy).Contents (Elt F) → (⟨S8000000x1, .f32⟩ : BufTy).Contents (Elt F)),
    reshape main_v52 main_v53 rfl shapeCasts_S8000000x1_S8000000,
    binary main_v51 main_v49 main_v54 (subf : (⟨S8000000, .f32⟩ : BufTy).Contents (Elt F) → (⟨S8000000, .f32⟩ : BufTy).Contents (Elt F) → (⟨S8000000, .f32⟩ : BufTy).Contents (Elt F)),
    nullary main_cst_7 (constant S_ .f32 0x41200000#32),
    unary main_cst_7 main_v55 (broadcastInDim S8000000 ![] bcast_S_S8000000 : (⟨S_, .f32⟩ : BufTy).Contents (Elt F) → (⟨S8000000, .f32⟩ : BufTy).Contents (Elt F)),
    binary main_v55 main_v54 main_v56 (mulf : (⟨S8000000, .f32⟩ : BufTy).Contents (Elt F) → (⟨S8000000, .f32⟩ : BufTy).Contents (Elt F) → (⟨S8000000, .f32⟩ : BufTy).Contents (Elt F)),
    nullary main_cst_8 (constant S_ .f32 0x41E00000#32),
    unary main_cst_8 main_v57 (broadcastInDim S8000000 ![] bcast_S_S8000000 : (⟨S_, .f32⟩ : BufTy).Contents (Elt F) → (⟨S8000000, .f32⟩ : BufTy).Contents (Elt F)),
    binary main_v57 main_v53 main_v58 (subf : (⟨S8000000, .f32⟩ : BufTy).Contents (Elt F) → (⟨S8000000, .f32⟩ : BufTy).Contents (Elt F) → (⟨S8000000, .f32⟩ : BufTy).Contents (Elt F)),
    binary main_v49 main_v58 main_v59 (mulf : (⟨S8000000, .f32⟩ : BufTy).Contents (Elt F) → (⟨S8000000, .f32⟩ : BufTy).Contents (Elt F) → (⟨S8000000, .f32⟩ : BufTy).Contents (Elt F)),
    binary main_v59 main_v51 main_v60 (subf : (⟨S8000000, .f32⟩ : BufTy).Contents (Elt F) → (⟨S8000000, .f32⟩ : BufTy).Contents (Elt F) → (⟨S8000000, .f32⟩ : BufTy).Contents (Elt F)),
    binary main_v49 main_v51 main_v61 (mulf : (⟨S8000000, .f32⟩ : BufTy).Contents (Elt F) → (⟨S8000000, .f32⟩ : BufTy).Contents (Elt F) → (⟨S8000000, .f32⟩ : BufTy).Contents (Elt F)),
    nullary main_cst_9 (constant S_ .f32 0x402AAAAB#32),
    unary main_cst_9 main_v62 (broadcastInDim S8000000 ![] bcast_S_S8000000 : (⟨S_, .f32⟩ : BufTy).Contents (Elt F) → (⟨S8000000, .f32⟩ : BufTy).Contents (Elt F)),
    binary main_v62 main_v53 main_v63 (mulf : (⟨S8000000, .f32⟩ : BufTy).Contents (Elt F) → (⟨S8000000, .f32⟩ : BufTy).Contents (Elt F) → (⟨S8000000, .f32⟩ : BufTy).Contents (Elt F)),
    binary main_v61 main_v63 main_v64 (subf : (⟨S8000000, .f32⟩ : BufTy).Contents (Elt F) → (⟨S8000000, .f32⟩ : BufTy).Contents (Elt F) → (⟨S8000000, .f32⟩ : BufTy).Contents (Elt F)),
    unary main_v56 main_v65 (broadcastInDim S8000000x1 ![0] bcast_S8000000_S8000000x1_0 : (⟨S8000000, .f32⟩ : BufTy).Contents (Elt F) → (⟨S8000000x1, .f32⟩ : BufTy).Contents (Elt F)),
    unary main_v60 main_v66 (broadcastInDim S8000000x1 ![0] bcast_S8000000_S8000000x1_0 : (⟨S8000000, .f32⟩ : BufTy).Contents (Elt F) → (⟨S8000000x1, .f32⟩ : BufTy).Contents (Elt F)),
    unary main_v64 main_v67 (broadcastInDim S8000000x1 ![0] bcast_S8000000_S8000000x1_0 : (⟨S8000000, .f32⟩ : BufTy).Contents (Elt F) → (⟨S8000000x1, .f32⟩ : BufTy).Contents (Elt F)),
    nary ![main_v65, main_v66, main_v67] main_v68 (fun u => concatenate S8000000x3 1 [⟨S8000000x1, u 0⟩, ⟨S8000000x1, u 1⟩, ⟨S8000000x1, u 2⟩] concatenates_S8000000x1_S8000000x1_S8000000x1_S8000000x3_d1),
    nullary main_cst_10 (constant S_ .f32 0x3C23D70A#32),
    unary main_cst_10 main_v69 (broadcastInDim S8000000x3 ![] bcast_S_S8000000x3 : (⟨S_, .f32⟩ : BufTy).Contents (Elt F) → (⟨S8000000x3, .f32⟩ : BufTy).Contents (Elt F)),
    binary main_v69 main_v68 main_v70 (mulf : (⟨S8000000x3, .f32⟩ : BufTy).Contents (Elt F) → (⟨S8000000x3, .f32⟩ : BufTy).Contents (Elt F) → (⟨S8000000x3, .f32⟩ : BufTy).Contents (Elt F)),
    binary main_arg0 main_v70 main_v71 (addf : (⟨S8000000x3, .f32⟩ : BufTy).Contents (Elt F) → (⟨S8000000x3, .f32⟩ : BufTy).Contents (Elt F) → (⟨S8000000x3, .f32⟩ : BufTy).Contents (Elt F)),
    unary main_v71 main_v72 ((extractStridedSlice S8000000x1 ![0, 0] · slices_S8000000x3_S8000000x1_0_0) : (⟨S8000000x3, .f32⟩ : BufTy).Contents (Elt F) → (⟨S8000000x1, .f32⟩ : BufTy).Contents (Elt F)),
    reshape main_v72 main_v73 rfl shapeCasts_S8000000x1_S8000000,
    unary main_v71 main_v74 ((extractStridedSlice S8000000x1 ![0, 1] · slices_S8000000x3_S8000000x1_0_1) : (⟨S8000000x3, .f32⟩ : BufTy).Contents (Elt F) → (⟨S8000000x1, .f32⟩ : BufTy).Contents (Elt F)),
    reshape main_v74 main_v75 rfl shapeCasts_S8000000x1_S8000000,
    unary main_v71 main_v76 ((extractStridedSlice S8000000x1 ![0, 2] · slices_S8000000x3_S8000000x1_0_2) : (⟨S8000000x3, .f32⟩ : BufTy).Contents (Elt F) → (⟨S8000000x1, .f32⟩ : BufTy).Contents (Elt F)),
    reshape main_v76 main_v77 rfl shapeCasts_S8000000x1_S8000000,
    binary main_v75 main_v73 main_v78 (subf : (⟨S8000000, .f32⟩ : BufTy).Contents (Elt F) → (⟨S8000000, .f32⟩ : BufTy).Contents (Elt F) → (⟨S8000000, .f32⟩ : BufTy).Contents (Elt F)),
    nullary main_cst_11 (constant S_ .f32 0x41200000#32),
    unary main_cst_11 main_v79 (broadcastInDim S8000000 ![] bcast_S_S8000000 : (⟨S_, .f32⟩ : BufTy).Contents (Elt F) → (⟨S8000000, .f32⟩ : BufTy).Contents (Elt F)),
    binary main_v79 main_v78 main_v80 (mulf : (⟨S8000000, .f32⟩ : BufTy).Contents (Elt F) → (⟨S8000000, .f32⟩ : BufTy).Contents (Elt F) → (⟨S8000000, .f32⟩ : BufTy).Contents (Elt F)),
    nullary main_cst_12 (constant S_ .f32 0x41E00000#32),
    unary main_cst_12 main_v81 (broadcastInDim S8000000 ![] bcast_S_S8000000 : (⟨S_, .f32⟩ : BufTy).Contents (Elt F) → (⟨S8000000, .f32⟩ : BufTy).Contents (Elt F)),
    binary main_v81 main_v77 main_v82 (subf : (⟨S8000000, .f32⟩ : BufTy).Contents (Elt F) → (⟨S8000000, .f32⟩ : BufTy).Contents (Elt F) → (⟨S8000000, .f32⟩ : BufTy).Contents (Elt F)),
    binary main_v73 main_v82 main_v83 (mulf : (⟨S8000000, .f32⟩ : BufTy).Contents (Elt F) → (⟨S8000000, .f32⟩ : BufTy).Contents (Elt F) → (⟨S8000000, .f32⟩ : BufTy).Contents (Elt F)),
    binary main_v83 main_v75 main_v84 (subf : (⟨S8000000, .f32⟩ : BufTy).Contents (Elt F) → (⟨S8000000, .f32⟩ : BufTy).Contents (Elt F) → (⟨S8000000, .f32⟩ : BufTy).Contents (Elt F)),
    binary main_v73 main_v75 main_v85 (mulf : (⟨S8000000, .f32⟩ : BufTy).Contents (Elt F) → (⟨S8000000, .f32⟩ : BufTy).Contents (Elt F) → (⟨S8000000, .f32⟩ : BufTy).Contents (Elt F)),
    nullary main_cst_13 (constant S_ .f32 0x402AAAAB#32),
    unary main_cst_13 main_v86 (broadcastInDim S8000000 ![] bcast_S_S8000000 : (⟨S_, .f32⟩ : BufTy).Contents (Elt F) → (⟨S8000000, .f32⟩ : BufTy).Contents (Elt F)),
    binary main_v86 main_v77 main_v87 (mulf : (⟨S8000000, .f32⟩ : BufTy).Contents (Elt F) → (⟨S8000000, .f32⟩ : BufTy).Contents (Elt F) → (⟨S8000000, .f32⟩ : BufTy).Contents (Elt F)),
    binary main_v85 main_v87 main_v88 (subf : (⟨S8000000, .f32⟩ : BufTy).Contents (Elt F) → (⟨S8000000, .f32⟩ : BufTy).Contents (Elt F) → (⟨S8000000, .f32⟩ : BufTy).Contents (Elt F)),
    unary main_v80 main_v89 (broadcastInDim S8000000x1 ![0] bcast_S8000000_S8000000x1_0 : (⟨S8000000, .f32⟩ : BufTy).Contents (Elt F) → (⟨S8000000x1, .f32⟩ : BufTy).Contents (Elt F)),
    unary main_v84 main_v90 (broadcastInDim S8000000x1 ![0] bcast_S8000000_S8000000x1_0 : (⟨S8000000, .f32⟩ : BufTy).Contents (Elt F) → (⟨S8000000x1, .f32⟩ : BufTy).Contents (Elt F)),
    unary main_v88 main_v91 (broadcastInDim S8000000x1 ![0] bcast_S8000000_S8000000x1_0 : (⟨S8000000, .f32⟩ : BufTy).Contents (Elt F) → (⟨S8000000x1, .f32⟩ : BufTy).Contents (Elt F)),
    nary ![main_v89, main_v90, main_v91] main_v92 (fun u => concatenate S8000000x3 1 [⟨S8000000x1, u 0⟩, ⟨S8000000x1, u 1⟩, ⟨S8000000x1, u 2⟩] concatenates_S8000000x1_S8000000x1_S8000000x1_S8000000x3_d1),
    nullary main_cst_14 (constant S_ .f32 0x40000000#32),
    unary main_cst_14 main_v93 (broadcastInDim S8000000x3 ![] bcast_S_S8000000x3 : (⟨S_, .f32⟩ : BufTy).Contents (Elt F) → (⟨S8000000x3, .f32⟩ : BufTy).Contents (Elt F)),
    binary main_v93 main_v44 main_v94 (mulf : (⟨S8000000x3, .f32⟩ : BufTy).Contents (Elt F) → (⟨S8000000x3, .f32⟩ : BufTy).Contents (Elt F) → (⟨S8000000x3, .f32⟩ : BufTy).Contents (Elt F)),
    binary main_v20 main_v94 main_v95 (addf : (⟨S8000000x3, .f32⟩ : BufTy).Contents (Elt F) → (⟨S8000000x3, .f32⟩ : BufTy).Contents (Elt F) → (⟨S8000000x3, .f32⟩ : BufTy).Contents (Elt F)),
    nullary main_cst_15 (constant S_ .f32 0x40000000#32),
    unary main_cst_15 main_v96 (broadcastInDim S8000000x3 ![] bcast_S_S8000000x3 : (⟨S_, .f32⟩ : BufTy).Contents (Elt F) → (⟨S8000000x3, .f32⟩ : BufTy).Contents (Elt F)),
    binary main_v96 main_v68 main_v97 (mulf : (⟨S8000000x3, .f32⟩ : BufTy).Contents (Elt F) → (⟨S8000000x3, .f32⟩ : BufTy).Contents (Elt F) → (⟨S8000000x3, .f32⟩ : BufTy).Contents (Elt F)),
    binary main_v95 main_v97 main_v98 (addf : (⟨S8000000x3, .f32⟩ : BufTy).Contents (Elt F) → (⟨S8000000x3, .f32⟩ : BufTy).Contents (Elt F) → (⟨S8000000x3, .f32⟩ : BufTy).Contents (Elt F)),
    binary main_v98 main_v92 main_v99 (addf : (⟨S8000000x3, .f32⟩ : BufTy).Contents (Elt F) → (⟨S8000000x3, .f32⟩ : BufTy).Contents (Elt F) → (⟨S8000000x3, .f32⟩ : BufTy).Contents (Elt F)),
    nullary main_cst_16 (constant S_ .f32 0x3ADA740E#32),
    unary main_cst_16 main_v100 (broadcastInDim S8000000x3 ![] bcast_S_S8000000x3 : (⟨S_, .f32⟩ : BufTy).Contents (Elt F) → (⟨S8000000x3, .f32⟩ : BufTy).Contents (Elt F)),
    binary main_v100 main_v99 main_v101 (mulf : (⟨S8000000x3, .f32⟩ : BufTy).Contents (Elt F) → (⟨S8000000x3, .f32⟩ : BufTy).Contents (Elt F) → (⟨S8000000x3, .f32⟩ : BufTy).Contents (Elt F)),
    binary main_arg0 main_v101 main_v102 (addf : (⟨S8000000x3, .f32⟩ : BufTy).Contents (Elt F) → (⟨S8000000x3, .f32⟩ : BufTy).Contents (Elt F) → (⟨S8000000x3, .f32⟩ : BufTy).Contents (Elt F)) ]

/-- The first stretch: the field of the argument. -/
def ops1 : List (HloOp τ sig (Elt F)) :=
  [ unary main_arg0 main_v0 ((extractStridedSlice S8000000x1 ![0, 0] · slices_S8000000x3_S8000000x1_0_0) : (⟨S8000000x3, .f32⟩ : BufTy).Contents (Elt F) → (⟨S8000000x1, .f32⟩ : BufTy).Contents (Elt F)),
    reshape main_v0 main_v1 rfl shapeCasts_S8000000x1_S8000000,
    unary main_arg0 main_v2 ((extractStridedSlice S8000000x1 ![0, 1] · slices_S8000000x3_S8000000x1_0_1) : (⟨S8000000x3, .f32⟩ : BufTy).Contents (Elt F) → (⟨S8000000x1, .f32⟩ : BufTy).Contents (Elt F)),
    reshape main_v2 main_v3 rfl shapeCasts_S8000000x1_S8000000,
    unary main_arg0 main_v4 ((extractStridedSlice S8000000x1 ![0, 2] · slices_S8000000x3_S8000000x1_0_2) : (⟨S8000000x3, .f32⟩ : BufTy).Contents (Elt F) → (⟨S8000000x1, .f32⟩ : BufTy).Contents (Elt F)),
    reshape main_v4 main_v5 rfl shapeCasts_S8000000x1_S8000000,
    binary main_v3 main_v1 main_v6 (subf : (⟨S8000000, .f32⟩ : BufTy).Contents (Elt F) → (⟨S8000000, .f32⟩ : BufTy).Contents (Elt F) → (⟨S8000000, .f32⟩ : BufTy).Contents (Elt F)),
    nullary main_cst (constant S_ .f32 0x41200000#32),
    unary main_cst main_v7 (broadcastInDim S8000000 ![] bcast_S_S8000000 : (⟨S_, .f32⟩ : BufTy).Contents (Elt F) → (⟨S8000000, .f32⟩ : BufTy).Contents (Elt F)),
    binary main_v7 main_v6 main_v8 (mulf : (⟨S8000000, .f32⟩ : BufTy).Contents (Elt F) → (⟨S8000000, .f32⟩ : BufTy).Contents (Elt F) → (⟨S8000000, .f32⟩ : BufTy).Contents (Elt F)),
    nullary main_cst_0 (constant S_ .f32 0x41E00000#32),
    unary main_cst_0 main_v9 (broadcastInDim S8000000 ![] bcast_S_S8000000 : (⟨S_, .f32⟩ : BufTy).Contents (Elt F) → (⟨S8000000, .f32⟩ : BufTy).Contents (Elt F)),
    binary main_v9 main_v5 main_v10 (subf : (⟨S8000000, .f32⟩ : BufTy).Contents (Elt F) → (⟨S8000000, .f32⟩ : BufTy).Contents (Elt F) → (⟨S8000000, .f32⟩ : BufTy).Contents (Elt F)),
    binary main_v1 main_v10 main_v11 (mulf : (⟨S8000000, .f32⟩ : BufTy).Contents (Elt F) → (⟨S8000000, .f32⟩ : BufTy).Contents (Elt F) → (⟨S8000000, .f32⟩ : BufTy).Contents (Elt F)),
    binary main_v11 main_v3 main_v12 (subf : (⟨S8000000, .f32⟩ : BufTy).Contents (Elt F) → (⟨S8000000, .f32⟩ : BufTy).Contents (Elt F) → (⟨S8000000, .f32⟩ : BufTy).Contents (Elt F)),
    binary main_v1 main_v3 main_v13 (mulf : (⟨S8000000, .f32⟩ : BufTy).Contents (Elt F) → (⟨S8000000, .f32⟩ : BufTy).Contents (Elt F) → (⟨S8000000, .f32⟩ : BufTy).Contents (Elt F)),
    nullary main_cst_1 (constant S_ .f32 0x402AAAAB#32),
    unary main_cst_1 main_v14 (broadcastInDim S8000000 ![] bcast_S_S8000000 : (⟨S_, .f32⟩ : BufTy).Contents (Elt F) → (⟨S8000000, .f32⟩ : BufTy).Contents (Elt F)),
    binary main_v14 main_v5 main_v15 (mulf : (⟨S8000000, .f32⟩ : BufTy).Contents (Elt F) → (⟨S8000000, .f32⟩ : BufTy).Contents (Elt F) → (⟨S8000000, .f32⟩ : BufTy).Contents (Elt F)),
    binary main_v13 main_v15 main_v16 (subf : (⟨S8000000, .f32⟩ : BufTy).Contents (Elt F) → (⟨S8000000, .f32⟩ : BufTy).Contents (Elt F) → (⟨S8000000, .f32⟩ : BufTy).Contents (Elt F)),
    unary main_v8 main_v17 (broadcastInDim S8000000x1 ![0] bcast_S8000000_S8000000x1_0 : (⟨S8000000, .f32⟩ : BufTy).Contents (Elt F) → (⟨S8000000x1, .f32⟩ : BufTy).Contents (Elt F)),
    unary main_v12 main_v18 (broadcastInDim S8000000x1 ![0] bcast_S8000000_S8000000x1_0 : (⟨S8000000, .f32⟩ : BufTy).Contents (Elt F) → (⟨S8000000x1, .f32⟩ : BufTy).Contents (Elt F)),
    unary main_v16 main_v19 (broadcastInDim S8000000x1 ![0] bcast_S8000000_S8000000x1_0 : (⟨S8000000, .f32⟩ : BufTy).Contents (Elt F) → (⟨S8000000x1, .f32⟩ : BufTy).Contents (Elt F)),
    nary ![main_v17, main_v18, main_v19] main_v20 (fun u => concatenate S8000000x3 1 [⟨S8000000x1, u 0⟩, ⟨S8000000x1, u 1⟩, ⟨S8000000x1, u 2⟩] concatenates_S8000000x1_S8000000x1_S8000000x1_S8000000x3_d1) ]

/-- The second stretch: the argument moved by h/2 along the first field, and the field there. -/
def ops2 : List (HloOp τ sig (Elt F)) :=
  [ nullary main_cst_2 (constant S_ .f32 0x3BA3D70A#32),
    unary main_cst_2 main_v21 (broadcastInDim S8000000x3 ![] bcast_S_S8000000x3 : (⟨S_, .f32⟩ : BufTy).Contents (Elt F) → (⟨S8000000x3, .f32⟩ : BufTy).Contents (Elt F)),
    binary main_v21 main_v20 main_v22 (mulf : (⟨S8000000x3, .f32⟩ : BufTy).Contents (Elt F) → (⟨S8000000x3, .f32⟩ : BufTy).Contents (Elt F) → (⟨S8000000x3, .f32⟩ : BufTy).Contents (Elt F)),
    binary main_arg0 main_v22 main_v23 (addf : (⟨S8000000x3, .f32⟩ : BufTy).Contents (Elt F) → (⟨S8000000x3, .f32⟩ : BufTy).Contents (Elt F) → (⟨S8000000x3, .f32⟩ : BufTy).Contents (Elt F)),
    unary main_v23 main_v24 ((extractStridedSlice S8000000x1 ![0, 0] · slices_S8000000x3_S8000000x1_0_0) : (⟨S8000000x3, .f32⟩ : BufTy).Contents (Elt F) → (⟨S8000000x1, .f32⟩ : BufTy).Contents (Elt F)),
    reshape main_v24 main_v25 rfl shapeCasts_S8000000x1_S8000000,
    unary main_v23 main_v26 ((extractStridedSlice S8000000x1 ![0, 1] · slices_S8000000x3_S8000000x1_0_1) : (⟨S8000000x3, .f32⟩ : BufTy).Contents (Elt F) → (⟨S8000000x1, .f32⟩ : BufTy).Contents (Elt F)),
    reshape main_v26 main_v27 rfl shapeCasts_S8000000x1_S8000000,
    unary main_v23 main_v28 ((extractStridedSlice S8000000x1 ![0, 2] · slices_S8000000x3_S8000000x1_0_2) : (⟨S8000000x3, .f32⟩ : BufTy).Contents (Elt F) → (⟨S8000000x1, .f32⟩ : BufTy).Contents (Elt F)),
    reshape main_v28 main_v29 rfl shapeCasts_S8000000x1_S8000000,
    binary main_v27 main_v25 main_v30 (subf : (⟨S8000000, .f32⟩ : BufTy).Contents (Elt F) → (⟨S8000000, .f32⟩ : BufTy).Contents (Elt F) → (⟨S8000000, .f32⟩ : BufTy).Contents (Elt F)),
    nullary main_cst_3 (constant S_ .f32 0x41200000#32),
    unary main_cst_3 main_v31 (broadcastInDim S8000000 ![] bcast_S_S8000000 : (⟨S_, .f32⟩ : BufTy).Contents (Elt F) → (⟨S8000000, .f32⟩ : BufTy).Contents (Elt F)),
    binary main_v31 main_v30 main_v32 (mulf : (⟨S8000000, .f32⟩ : BufTy).Contents (Elt F) → (⟨S8000000, .f32⟩ : BufTy).Contents (Elt F) → (⟨S8000000, .f32⟩ : BufTy).Contents (Elt F)),
    nullary main_cst_4 (constant S_ .f32 0x41E00000#32),
    unary main_cst_4 main_v33 (broadcastInDim S8000000 ![] bcast_S_S8000000 : (⟨S_, .f32⟩ : BufTy).Contents (Elt F) → (⟨S8000000, .f32⟩ : BufTy).Contents (Elt F)),
    binary main_v33 main_v29 main_v34 (subf : (⟨S8000000, .f32⟩ : BufTy).Contents (Elt F) → (⟨S8000000, .f32⟩ : BufTy).Contents (Elt F) → (⟨S8000000, .f32⟩ : BufTy).Contents (Elt F)),
    binary main_v25 main_v34 main_v35 (mulf : (⟨S8000000, .f32⟩ : BufTy).Contents (Elt F) → (⟨S8000000, .f32⟩ : BufTy).Contents (Elt F) → (⟨S8000000, .f32⟩ : BufTy).Contents (Elt F)),
    binary main_v35 main_v27 main_v36 (subf : (⟨S8000000, .f32⟩ : BufTy).Contents (Elt F) → (⟨S8000000, .f32⟩ : BufTy).Contents (Elt F) → (⟨S8000000, .f32⟩ : BufTy).Contents (Elt F)),
    binary main_v25 main_v27 main_v37 (mulf : (⟨S8000000, .f32⟩ : BufTy).Contents (Elt F) → (⟨S8000000, .f32⟩ : BufTy).Contents (Elt F) → (⟨S8000000, .f32⟩ : BufTy).Contents (Elt F)),
    nullary main_cst_5 (constant S_ .f32 0x402AAAAB#32),
    unary main_cst_5 main_v38 (broadcastInDim S8000000 ![] bcast_S_S8000000 : (⟨S_, .f32⟩ : BufTy).Contents (Elt F) → (⟨S8000000, .f32⟩ : BufTy).Contents (Elt F)),
    binary main_v38 main_v29 main_v39 (mulf : (⟨S8000000, .f32⟩ : BufTy).Contents (Elt F) → (⟨S8000000, .f32⟩ : BufTy).Contents (Elt F) → (⟨S8000000, .f32⟩ : BufTy).Contents (Elt F)),
    binary main_v37 main_v39 main_v40 (subf : (⟨S8000000, .f32⟩ : BufTy).Contents (Elt F) → (⟨S8000000, .f32⟩ : BufTy).Contents (Elt F) → (⟨S8000000, .f32⟩ : BufTy).Contents (Elt F)),
    unary main_v32 main_v41 (broadcastInDim S8000000x1 ![0] bcast_S8000000_S8000000x1_0 : (⟨S8000000, .f32⟩ : BufTy).Contents (Elt F) → (⟨S8000000x1, .f32⟩ : BufTy).Contents (Elt F)),
    unary main_v36 main_v42 (broadcastInDim S8000000x1 ![0] bcast_S8000000_S8000000x1_0 : (⟨S8000000, .f32⟩ : BufTy).Contents (Elt F) → (⟨S8000000x1, .f32⟩ : BufTy).Contents (Elt F)),
    unary main_v40 main_v43 (broadcastInDim S8000000x1 ![0] bcast_S8000000_S8000000x1_0 : (⟨S8000000, .f32⟩ : BufTy).Contents (Elt F) → (⟨S8000000x1, .f32⟩ : BufTy).Contents (Elt F)),
    nary ![main_v41, main_v42, main_v43] main_v44 (fun u => concatenate S8000000x3 1 [⟨S8000000x1, u 0⟩, ⟨S8000000x1, u 1⟩, ⟨S8000000x1, u 2⟩] concatenates_S8000000x1_S8000000x1_S8000000x1_S8000000x3_d1) ]

/-- The third stretch: the argument moved by h/2 along the second field, and the field there. -/
def ops3 : List (HloOp τ sig (Elt F)) :=
  [ nullary main_cst_6 (constant S_ .f32 0x3BA3D70A#32),
    unary main_cst_6 main_v45 (broadcastInDim S8000000x3 ![] bcast_S_S8000000x3 : (⟨S_, .f32⟩ : BufTy).Contents (Elt F) → (⟨S8000000x3, .f32⟩ : BufTy).Contents (Elt F)),
    binary main_v45 main_v44 main_v46 (mulf : (⟨S8000000x3, .f32⟩ : BufTy).Contents (Elt F) → (⟨S8000000x3, .f32⟩ : BufTy).Contents (Elt F) → (⟨S8000000x3, .f32⟩ : BufTy).Contents (Elt F)),
    binary main_arg0 main_v46 main_v47 (addf : (⟨S8000000x3, .f32⟩ : BufTy).Contents (Elt F) → (⟨S8000000x3, .f32⟩ : BufTy).Contents (Elt F) → (⟨S8000000x3, .f32⟩ : BufTy).Contents (Elt F)),
    unary main_v47 main_v48 ((extractStridedSlice S8000000x1 ![0, 0] · slices_S8000000x3_S8000000x1_0_0) : (⟨S8000000x3, .f32⟩ : BufTy).Contents (Elt F) → (⟨S8000000x1, .f32⟩ : BufTy).Contents (Elt F)),
    reshape main_v48 main_v49 rfl shapeCasts_S8000000x1_S8000000,
    unary main_v47 main_v50 ((extractStridedSlice S8000000x1 ![0, 1] · slices_S8000000x3_S8000000x1_0_1) : (⟨S8000000x3, .f32⟩ : BufTy).Contents (Elt F) → (⟨S8000000x1, .f32⟩ : BufTy).Contents (Elt F)),
    reshape main_v50 main_v51 rfl shapeCasts_S8000000x1_S8000000,
    unary main_v47 main_v52 ((extractStridedSlice S8000000x1 ![0, 2] · slices_S8000000x3_S8000000x1_0_2) : (⟨S8000000x3, .f32⟩ : BufTy).Contents (Elt F) → (⟨S8000000x1, .f32⟩ : BufTy).Contents (Elt F)),
    reshape main_v52 main_v53 rfl shapeCasts_S8000000x1_S8000000,
    binary main_v51 main_v49 main_v54 (subf : (⟨S8000000, .f32⟩ : BufTy).Contents (Elt F) → (⟨S8000000, .f32⟩ : BufTy).Contents (Elt F) → (⟨S8000000, .f32⟩ : BufTy).Contents (Elt F)),
    nullary main_cst_7 (constant S_ .f32 0x41200000#32),
    unary main_cst_7 main_v55 (broadcastInDim S8000000 ![] bcast_S_S8000000 : (⟨S_, .f32⟩ : BufTy).Contents (Elt F) → (⟨S8000000, .f32⟩ : BufTy).Contents (Elt F)),
    binary main_v55 main_v54 main_v56 (mulf : (⟨S8000000, .f32⟩ : BufTy).Contents (Elt F) → (⟨S8000000, .f32⟩ : BufTy).Contents (Elt F) → (⟨S8000000, .f32⟩ : BufTy).Contents (Elt F)),
    nullary main_cst_8 (constant S_ .f32 0x41E00000#32),
    unary main_cst_8 main_v57 (broadcastInDim S8000000 ![] bcast_S_S8000000 : (⟨S_, .f32⟩ : BufTy).Contents (Elt F) → (⟨S8000000, .f32⟩ : BufTy).Contents (Elt F)),
    binary main_v57 main_v53 main_v58 (subf : (⟨S8000000, .f32⟩ : BufTy).Contents (Elt F) → (⟨S8000000, .f32⟩ : BufTy).Contents (Elt F) → (⟨S8000000, .f32⟩ : BufTy).Contents (Elt F)),
    binary main_v49 main_v58 main_v59 (mulf : (⟨S8000000, .f32⟩ : BufTy).Contents (Elt F) → (⟨S8000000, .f32⟩ : BufTy).Contents (Elt F) → (⟨S8000000, .f32⟩ : BufTy).Contents (Elt F)),
    binary main_v59 main_v51 main_v60 (subf : (⟨S8000000, .f32⟩ : BufTy).Contents (Elt F) → (⟨S8000000, .f32⟩ : BufTy).Contents (Elt F) → (⟨S8000000, .f32⟩ : BufTy).Contents (Elt F)),
    binary main_v49 main_v51 main_v61 (mulf : (⟨S8000000, .f32⟩ : BufTy).Contents (Elt F) → (⟨S8000000, .f32⟩ : BufTy).Contents (Elt F) → (⟨S8000000, .f32⟩ : BufTy).Contents (Elt F)),
    nullary main_cst_9 (constant S_ .f32 0x402AAAAB#32),
    unary main_cst_9 main_v62 (broadcastInDim S8000000 ![] bcast_S_S8000000 : (⟨S_, .f32⟩ : BufTy).Contents (Elt F) → (⟨S8000000, .f32⟩ : BufTy).Contents (Elt F)),
    binary main_v62 main_v53 main_v63 (mulf : (⟨S8000000, .f32⟩ : BufTy).Contents (Elt F) → (⟨S8000000, .f32⟩ : BufTy).Contents (Elt F) → (⟨S8000000, .f32⟩ : BufTy).Contents (Elt F)),
    binary main_v61 main_v63 main_v64 (subf : (⟨S8000000, .f32⟩ : BufTy).Contents (Elt F) → (⟨S8000000, .f32⟩ : BufTy).Contents (Elt F) → (⟨S8000000, .f32⟩ : BufTy).Contents (Elt F)),
    unary main_v56 main_v65 (broadcastInDim S8000000x1 ![0] bcast_S8000000_S8000000x1_0 : (⟨S8000000, .f32⟩ : BufTy).Contents (Elt F) → (⟨S8000000x1, .f32⟩ : BufTy).Contents (Elt F)),
    unary main_v60 main_v66 (broadcastInDim S8000000x1 ![0] bcast_S8000000_S8000000x1_0 : (⟨S8000000, .f32⟩ : BufTy).Contents (Elt F) → (⟨S8000000x1, .f32⟩ : BufTy).Contents (Elt F)),
    unary main_v64 main_v67 (broadcastInDim S8000000x1 ![0] bcast_S8000000_S8000000x1_0 : (⟨S8000000, .f32⟩ : BufTy).Contents (Elt F) → (⟨S8000000x1, .f32⟩ : BufTy).Contents (Elt F)),
    nary ![main_v65, main_v66, main_v67] main_v68 (fun u => concatenate S8000000x3 1 [⟨S8000000x1, u 0⟩, ⟨S8000000x1, u 1⟩, ⟨S8000000x1, u 2⟩] concatenates_S8000000x1_S8000000x1_S8000000x1_S8000000x3_d1) ]

/-- The fourth stretch: the argument moved by h along the third field, and the field there. -/
def ops4 : List (HloOp τ sig (Elt F)) :=
  [ nullary main_cst_10 (constant S_ .f32 0x3C23D70A#32),
    unary main_cst_10 main_v69 (broadcastInDim S8000000x3 ![] bcast_S_S8000000x3 : (⟨S_, .f32⟩ : BufTy).Contents (Elt F) → (⟨S8000000x3, .f32⟩ : BufTy).Contents (Elt F)),
    binary main_v69 main_v68 main_v70 (mulf : (⟨S8000000x3, .f32⟩ : BufTy).Contents (Elt F) → (⟨S8000000x3, .f32⟩ : BufTy).Contents (Elt F) → (⟨S8000000x3, .f32⟩ : BufTy).Contents (Elt F)),
    binary main_arg0 main_v70 main_v71 (addf : (⟨S8000000x3, .f32⟩ : BufTy).Contents (Elt F) → (⟨S8000000x3, .f32⟩ : BufTy).Contents (Elt F) → (⟨S8000000x3, .f32⟩ : BufTy).Contents (Elt F)),
    unary main_v71 main_v72 ((extractStridedSlice S8000000x1 ![0, 0] · slices_S8000000x3_S8000000x1_0_0) : (⟨S8000000x3, .f32⟩ : BufTy).Contents (Elt F) → (⟨S8000000x1, .f32⟩ : BufTy).Contents (Elt F)),
    reshape main_v72 main_v73 rfl shapeCasts_S8000000x1_S8000000,
    unary main_v71 main_v74 ((extractStridedSlice S8000000x1 ![0, 1] · slices_S8000000x3_S8000000x1_0_1) : (⟨S8000000x3, .f32⟩ : BufTy).Contents (Elt F) → (⟨S8000000x1, .f32⟩ : BufTy).Contents (Elt F)),
    reshape main_v74 main_v75 rfl shapeCasts_S8000000x1_S8000000,
    unary main_v71 main_v76 ((extractStridedSlice S8000000x1 ![0, 2] · slices_S8000000x3_S8000000x1_0_2) : (⟨S8000000x3, .f32⟩ : BufTy).Contents (Elt F) → (⟨S8000000x1, .f32⟩ : BufTy).Contents (Elt F)),
    reshape main_v76 main_v77 rfl shapeCasts_S8000000x1_S8000000,
    binary main_v75 main_v73 main_v78 (subf : (⟨S8000000, .f32⟩ : BufTy).Contents (Elt F) → (⟨S8000000, .f32⟩ : BufTy).Contents (Elt F) → (⟨S8000000, .f32⟩ : BufTy).Contents (Elt F)),
    nullary main_cst_11 (constant S_ .f32 0x41200000#32),
    unary main_cst_11 main_v79 (broadcastInDim S8000000 ![] bcast_S_S8000000 : (⟨S_, .f32⟩ : BufTy).Contents (Elt F) → (⟨S8000000, .f32⟩ : BufTy).Contents (Elt F)),
    binary main_v79 main_v78 main_v80 (mulf : (⟨S8000000, .f32⟩ : BufTy).Contents (Elt F) → (⟨S8000000, .f32⟩ : BufTy).Contents (Elt F) → (⟨S8000000, .f32⟩ : BufTy).Contents (Elt F)),
    nullary main_cst_12 (constant S_ .f32 0x41E00000#32),
    unary main_cst_12 main_v81 (broadcastInDim S8000000 ![] bcast_S_S8000000 : (⟨S_, .f32⟩ : BufTy).Contents (Elt F) → (⟨S8000000, .f32⟩ : BufTy).Contents (Elt F)),
    binary main_v81 main_v77 main_v82 (subf : (⟨S8000000, .f32⟩ : BufTy).Contents (Elt F) → (⟨S8000000, .f32⟩ : BufTy).Contents (Elt F) → (⟨S8000000, .f32⟩ : BufTy).Contents (Elt F)),
    binary main_v73 main_v82 main_v83 (mulf : (⟨S8000000, .f32⟩ : BufTy).Contents (Elt F) → (⟨S8000000, .f32⟩ : BufTy).Contents (Elt F) → (⟨S8000000, .f32⟩ : BufTy).Contents (Elt F)),
    binary main_v83 main_v75 main_v84 (subf : (⟨S8000000, .f32⟩ : BufTy).Contents (Elt F) → (⟨S8000000, .f32⟩ : BufTy).Contents (Elt F) → (⟨S8000000, .f32⟩ : BufTy).Contents (Elt F)),
    binary main_v73 main_v75 main_v85 (mulf : (⟨S8000000, .f32⟩ : BufTy).Contents (Elt F) → (⟨S8000000, .f32⟩ : BufTy).Contents (Elt F) → (⟨S8000000, .f32⟩ : BufTy).Contents (Elt F)),
    nullary main_cst_13 (constant S_ .f32 0x402AAAAB#32),
    unary main_cst_13 main_v86 (broadcastInDim S8000000 ![] bcast_S_S8000000 : (⟨S_, .f32⟩ : BufTy).Contents (Elt F) → (⟨S8000000, .f32⟩ : BufTy).Contents (Elt F)),
    binary main_v86 main_v77 main_v87 (mulf : (⟨S8000000, .f32⟩ : BufTy).Contents (Elt F) → (⟨S8000000, .f32⟩ : BufTy).Contents (Elt F) → (⟨S8000000, .f32⟩ : BufTy).Contents (Elt F)),
    binary main_v85 main_v87 main_v88 (subf : (⟨S8000000, .f32⟩ : BufTy).Contents (Elt F) → (⟨S8000000, .f32⟩ : BufTy).Contents (Elt F) → (⟨S8000000, .f32⟩ : BufTy).Contents (Elt F)),
    unary main_v80 main_v89 (broadcastInDim S8000000x1 ![0] bcast_S8000000_S8000000x1_0 : (⟨S8000000, .f32⟩ : BufTy).Contents (Elt F) → (⟨S8000000x1, .f32⟩ : BufTy).Contents (Elt F)),
    unary main_v84 main_v90 (broadcastInDim S8000000x1 ![0] bcast_S8000000_S8000000x1_0 : (⟨S8000000, .f32⟩ : BufTy).Contents (Elt F) → (⟨S8000000x1, .f32⟩ : BufTy).Contents (Elt F)),
    unary main_v88 main_v91 (broadcastInDim S8000000x1 ![0] bcast_S8000000_S8000000x1_0 : (⟨S8000000, .f32⟩ : BufTy).Contents (Elt F) → (⟨S8000000x1, .f32⟩ : BufTy).Contents (Elt F)),
    nary ![main_v89, main_v90, main_v91] main_v92 (fun u => concatenate S8000000x3 1 [⟨S8000000x1, u 0⟩, ⟨S8000000x1, u 1⟩, ⟨S8000000x1, u 2⟩] concatenates_S8000000x1_S8000000x1_S8000000x1_S8000000x3_d1) ]

/-- The last stretch: the weighted sum of the four fields, times h/6, added to the argument. -/
def ops5 : List (HloOp τ sig (Elt F)) :=
  [ nullary main_cst_14 (constant S_ .f32 0x40000000#32),
    unary main_cst_14 main_v93 (broadcastInDim S8000000x3 ![] bcast_S_S8000000x3 : (⟨S_, .f32⟩ : BufTy).Contents (Elt F) → (⟨S8000000x3, .f32⟩ : BufTy).Contents (Elt F)),
    binary main_v93 main_v44 main_v94 (mulf : (⟨S8000000x3, .f32⟩ : BufTy).Contents (Elt F) → (⟨S8000000x3, .f32⟩ : BufTy).Contents (Elt F) → (⟨S8000000x3, .f32⟩ : BufTy).Contents (Elt F)),
    binary main_v20 main_v94 main_v95 (addf : (⟨S8000000x3, .f32⟩ : BufTy).Contents (Elt F) → (⟨S8000000x3, .f32⟩ : BufTy).Contents (Elt F) → (⟨S8000000x3, .f32⟩ : BufTy).Contents (Elt F)),
    nullary main_cst_15 (constant S_ .f32 0x40000000#32),
    unary main_cst_15 main_v96 (broadcastInDim S8000000x3 ![] bcast_S_S8000000x3 : (⟨S_, .f32⟩ : BufTy).Contents (Elt F) → (⟨S8000000x3, .f32⟩ : BufTy).Contents (Elt F)),
    binary main_v96 main_v68 main_v97 (mulf : (⟨S8000000x3, .f32⟩ : BufTy).Contents (Elt F) → (⟨S8000000x3, .f32⟩ : BufTy).Contents (Elt F) → (⟨S8000000x3, .f32⟩ : BufTy).Contents (Elt F)),
    binary main_v95 main_v97 main_v98 (addf : (⟨S8000000x3, .f32⟩ : BufTy).Contents (Elt F) → (⟨S8000000x3, .f32⟩ : BufTy).Contents (Elt F) → (⟨S8000000x3, .f32⟩ : BufTy).Contents (Elt F)),
    binary main_v98 main_v92 main_v99 (addf : (⟨S8000000x3, .f32⟩ : BufTy).Contents (Elt F) → (⟨S8000000x3, .f32⟩ : BufTy).Contents (Elt F) → (⟨S8000000x3, .f32⟩ : BufTy).Contents (Elt F)),
    nullary main_cst_16 (constant S_ .f32 0x3ADA740E#32),
    unary main_cst_16 main_v100 (broadcastInDim S8000000x3 ![] bcast_S_S8000000x3 : (⟨S_, .f32⟩ : BufTy).Contents (Elt F) → (⟨S8000000x3, .f32⟩ : BufTy).Contents (Elt F)),
    binary main_v100 main_v99 main_v101 (mulf : (⟨S8000000x3, .f32⟩ : BufTy).Contents (Elt F) → (⟨S8000000x3, .f32⟩ : BufTy).Contents (Elt F) → (⟨S8000000x3, .f32⟩ : BufTy).Contents (Elt F)),
    binary main_arg0 main_v101 main_v102 (addf : (⟨S8000000x3, .f32⟩ : BufTy).Contents (Elt F) → (⟨S8000000x3, .f32⟩ : BufTy).Contents (Elt F) → (⟨S8000000x3, .f32⟩ : BufTy).Contents (Elt F)) ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., unary_bufs_sub .., unary_bufs_sub .., nary_bufs_sub .., nullary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., unary_bufs_sub .., unary_bufs_sub .., nary_bufs_sub .., nullary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., unary_bufs_sub .., unary_bufs_sub .., nary_bufs_sub .., nullary_bufs_sub .., unary_bufs_sub .., binary_bufs_sub .., binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., unary_bufs_sub .., unary_bufs_sub .., nary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩

set_option maxRecDepth 8192 in
theorem ops_split : (ops : List (HloOp τ sig (Elt F))) = ops1 ++ (ops2 ++ (ops3 ++ (ops4 ++ ops5))) := rfl

/-- Running one line after another is running the second from where the first ends. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The Runge–Kutta sum as the reference spells it on whole arrays: X + (h/6)·(((K₁ + 2·K₂) + 2·K₃) + K₄). -/
def weighted (X K1 K2 K3 K4 : States) : States :=
  addf X (mulf (broadcastInDim S8000000x3 ![] bcast_S_S8000000x3 (constant S_ .f32 0x3ADA740E#32))
    (addf (addf (addf K1 (mulf (broadcastInDim S8000000x3 ![] bcast_S_S8000000x3 (constant S_ .f32 0x40000000#32)) K2)) (mulf (broadcastInDim S8000000x3 ![] bcast_S_S8000000x3 (constant S_ .f32 0x40000000#32)) K3)) K4))

section Stretches

variable (W : Valuation τ sig (Elt Ideal))

theorem seg1 : after ops1 W (Proc.devRef .tc main_v20) = fieldOf (W (Proc.devRef .tc main_arg0)) := by
  unfold ops1
  after_results_simp <;> rfl
theorem seg1_arg0 : after ops1 W (Proc.devRef .tc main_arg0) = W (Proc.devRef .tc main_arg0) := by
  unfold ops1
  after_results_simp

theorem seg2 : after ops2 W (Proc.devRef .tc main_v44)
    = fieldOf (advanceOf 0x3BA3D70A#32 (W (Proc.devRef .tc main_arg0)) (W (Proc.devRef .tc main_v20))) := by
  unfold ops2
  after_results_simp <;> rfl
theorem seg2_arg0 : after ops2 W (Proc.devRef .tc main_arg0) = W (Proc.devRef .tc main_arg0) := by
  unfold ops2
  after_results_simp
theorem seg2_v20 : after ops2 W (Proc.devRef .tc main_v20) = W (Proc.devRef .tc main_v20) := by
  unfold ops2
  after_results_simp

theorem seg3 : after ops3 W (Proc.devRef .tc main_v68)
    = fieldOf (advanceOf 0x3BA3D70A#32 (W (Proc.devRef .tc main_arg0)) (W (Proc.devRef .tc main_v44))) := by
  unfold ops3
  after_results_simp <;> rfl
theorem seg3_arg0 : after ops3 W (Proc.devRef .tc main_arg0) = W (Proc.devRef .tc main_arg0) := by
  unfold ops3
  after_results_simp
theorem seg3_v20 : after ops3 W (Proc.devRef .tc main_v20) = W (Proc.devRef .tc main_v20) := by
  unfold ops3
  after_results_simp
theorem seg3_v44 : after ops3 W (Proc.devRef .tc main_v44) = W (Proc.devRef .tc main_v44) := by
  unfold ops3
  after_results_simp

theorem seg4 : after ops4 W (Proc.devRef .tc main_v92)
    = fieldOf (advanceOf 0x3C23D70A#32 (W (Proc.devRef .tc main_arg0)) (W (Proc.devRef .tc main_v68))) := by
  unfold ops4
  after_results_simp <;> rfl
theorem seg4_arg0 : after ops4 W (Proc.devRef .tc main_arg0) = W (Proc.devRef .tc main_arg0) := by
  unfold ops4
  after_results_simp
theorem seg4_v20 : after ops4 W (Proc.devRef .tc main_v20) = W (Proc.devRef .tc main_v20) := by
  unfold ops4
  after_results_simp
theorem seg4_v44 : after ops4 W (Proc.devRef .tc main_v44) = W (Proc.devRef .tc main_v44) := by
  unfold ops4
  after_results_simp
theorem seg4_v68 : after ops4 W (Proc.devRef .tc main_v68) = W (Proc.devRef .tc main_v68) := by
  unfold ops4
  after_results_simp

theorem seg5 : after ops5 W (Proc.devRef .tc main_v102)
    = weighted (W (Proc.devRef .tc main_arg0)) (W (Proc.devRef .tc main_v20)) (W (Proc.devRef .tc main_v44))
        (W (Proc.devRef .tc main_v68)) (W (Proc.devRef .tc main_v92)) := by
  unfold ops5
  after_results_simp <;> rfl
theorem seg5_arg0 : after ops5 W (Proc.devRef .tc main_arg0) = W (Proc.devRef .tc main_arg0) := by
  unfold ops5
  after_results_simp

end Stretches

/-- After the whole line the result buffer holds the reference's computation on the argument. -/
theorem after_result (V : Valuation τ sig (Elt Ideal)) :
    after ops V (Proc.devRef .tc main_v102) = stepOf (V (Proc.devRef .tc main_arg0)) := by
  rw [ops_split, after_append, after_append, after_append, after_append, seg5,
    seg4, seg4_arg0, seg4_v20, seg4_v44, seg4_v68, seg3, seg3_arg0, seg3_v20, seg3_v44, seg2, seg2_arg0, seg2_v20, seg1, seg1_arg0]
  rfl

/-- And the argument is what it was. -/
theorem after_arg (V : Valuation τ sig (Elt Ideal)) :
    after ops V (Proc.devRef .tc main_arg0) = V (Proc.devRef .tc main_arg0) := by
  rw [ops_split, after_append, after_append, after_append, after_append, seg5_arg0, seg4_arg0, seg3_arg0, seg2_arg0, seg1_arg0]

/-- From any memory, every weakly fair execution of the reference terminates with its result at the step of every row
    of the argument, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = stepOf ((launchContents m c) (Proc.devRef .tc main_arg0))
      ∧ r.2.mem ((c.tc : Thread nD τ).loc main_arg0) = m ((c.tc : Thread nD τ).loc main_arg0) :=
  (θ_run defs _ _).mono (fun _ h c => ⟨(h c main_v102).trans (after_result (launchContents m c)),
      (h c main_arg0).trans (after_arg (launchContents m c))⟩)
    (run_seq scopedRefs_eq scopedSems_eq defs main (fun _ => ops) main_eq (fun _ => ops_sub) m ρ)

end Cert.ReferenceIdeal.HostRun

end
-- ==== Proof.lean ====
/-
  One Runge–Kutta step of the Lorenz system for 8000000 states, as a tiled kernel and as whole-array arithmetic.

  Both programs compute, for every row n of the [8000000, 3] argument, one classical fourth-order Runge–Kutta step
  of the Lorenz system from the state in that row (Proof/LorenzStep.lean: the vector field, the four slopes, the step,
  with the seven constants the exact values of the single-precision patterns both programs carry, and with the one
  grouping of sums and products both programs use). They differ only in how the states are laid out: the kernel
  program pads, transposes and folds the states into three planes, steps them block by block, and undoes the layout
  (Proof/KernelBlock.lean: what the body leaves in a block; Proof/KernelArray.lean: the blocks tile the planes, the
  layout before and after); the reference slices the columns apart, does the arithmetic on whole arrays and sets
  the columns back side by side (Proof/ReferenceRows.lean; its run, read in five stretches, is Proof/ReferenceRun.lean). Read at row n and column d, each program's result is
  coordinate d of the step from row n: the same extended real. No law of arithmetic is used beyond that, so the
  finiteness of the inputs is never opened. The two kernel frames are the generated ones; the reference's frame is its
  run with the result dropped; the idealization rewrote nothing, so there is nothing to preserve.
-/
import proofs.«141499_j45707041964068_1_alg».proof.Defs
import proofs.«141499_j45707041964068_1_alg».proof.Proof.Gen.Kernel
import proofs.«141499_j45707041964068_1_alg».proof.Proof.Gen.Kernel.Skeleton
import proofs.«141499_j45707041964068_1_alg».proof.Proof.Gen.Kernel.Launch
import proofs.«141499_j45707041964068_1_alg».proof.Proof.Gen.Kernel.Points
import proofs.«141499_j45707041964068_1_alg».proof.Proof.Gen.Kernel.Frame
import proofs.«141499_j45707041964068_1_alg».proof.Proof.Gen.KernelIdeal
import proofs.«141499_j45707041964068_1_alg».proof.Proof.Gen.KernelIdeal.Skeleton
import proofs.«141499_j45707041964068_1_alg».proof.Proof.Gen.KernelIdeal.Launch
import proofs.«141499_j45707041964068_1_alg».proof.Proof.Gen.KernelIdeal.Points
import proofs.«141499_j45707041964068_1_alg».proof.Proof.Gen.KernelIdeal.Frame
import proofs.«141499_j45707041964068_1_alg».proof.Proof.Gen.ReferenceIdeal
import proofs.«141499_j45707041964068_1_alg».proof.Proof.Gen.Pre_finite_inputs
import proofs.«141499_j45707041964068_1_alg».proof.Proof.KernelArray
import proofs.«141499_j45707041964068_1_alg».proof.Proof.ReferenceRows
import proofs.«141499_j45707041964068_1_alg».proof.Proof.ReferenceRun
import Idealize.ShloMosaic.Adequacy
import Idealize.ShloMosaic.Init

noncomputable section

namespace Cert.Proof

open Idealize.ShloMosaic Idealize.ShloMosaic.TcCoe Idealize.SL.Sem

namespace Rk4Claims

/-- The kernel program as printed runs, and leaves its argument as it found it. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with what it computes dropped. -/
theorem frame_referenceIdeal : Cert.frame_ReferenceIdeal := fun m ρ _ =>
  (θ_run Cert.ReferenceIdeal.defs _ _).mono (fun _ h c => (h c).2) (Cert.ReferenceIdeal.HostRun.run m ρ)

/-- The idealization rewrote no operation of the kernel program. -/
theorem preserves : Cert.preserves_Kernel_KernelIdeal := trivial

/-- From arguments that agree, both programs end with the Runge–Kutta step applied to every row of the argument. -/
theorem algebraic : Cert.algebraic_KernelIdeal_ReferenceIdeal := by
  intro m ρ m' ρ' _ hagree
  refine ⟨fun c => Cert.LorenzStep.stepRows (m ((c.tc : Thread Cert.KernelIdeal.nD Cert.KernelIdeal.τ).loc Cert.KernelIdeal.main_arg0)),
    Cert.KernelIdeal.ArrayRead.run m ρ, ?_⟩
  refine (θ_run Cert.ReferenceIdeal.defs _ _).mono (fun _ h c => ⟨(h c).1.trans ?_, (h c).2⟩)
    (Cert.ReferenceIdeal.HostRun.run m' ρ')
  rw [Cert.ReferenceIdeal.RowRead.stepOf_eq]
  exact congrArg Cert.LorenzStep.stepRows (hagree c)

end Rk4Claims

theorem claim : Cert.Claim := ⟨Cert.Kernel.Gen.facts, Cert.KernelIdeal.Gen.facts, Cert.ReferenceIdeal.Gen.facts, Cert.Pre_finite_inputs.Gen.facts,
  Rk4Claims.frame_kernel, Rk4Claims.frame_kernelIdeal, Rk4Claims.frame_referenceIdeal, Rk4Claims.preserves, Rk4Claims.algebraic⟩

end Cert.Proof

end
